-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S256x4096 : Shape := ⟨2, ![256, 4096]⟩
abbrev S256 : Shape := ⟨1, ![256]⟩
abbrev S6144x256 : Shape := ⟨2, ![6144, 256]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S6144x256 : S_.BroadcastsInDim S6144x256 (![] : Fin 0 → Fin S6144x256.rank)
  reducesTo_S6144x256_S_d0_1 : S6144x256.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S6144x256 .f32) (main_arg5 : FVec F S6144 .f32) (main_arg6 : FVec F S2048x2048 .f32) (main_arg7 : FVec F S2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S6144x256 .f32 := Host.absf main_arg4
  let main_cst_6 : FVec F S_ .f32 := constant S_ .f32 0x7F800000#32
  let main_v20 : FVec F S6144x256 .f32 := broadcastInDim S6144x256 ![] bcast_S_S6144x256 main_cst_6
  let main_v21 : IVec S6144x256 1 := cmpf .olt main_v19 main_v20
  let main_c_7 : IVec S_ 1 := constantI S_ 1 1#1
  let main_v22 : IVec S_ 1 := (fun x v => Host.reduce IntOp.andi x v reducesTo_S6144x256_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S8192x2048 .f32) (main_arg2 : FVec F S256x4096 .f32) (main_arg3 : FVec F S256 .f32) (main_arg4 : FVec F S6144x256 .f32) (main_arg5 : FVec F S6144 .f32) (main_arg6 : FVec F S2048x2048 .f32) (main_arg7 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8192x2048 : Shape := ⟨2, ![8192, 2048]⟩
abbrev S256x4096 : Shape := ⟨2, ![256, 4096]⟩
abbrev S256 : Shape := ⟨1, ![256]⟩
abbrev S6144x256 : Shape := ⟨2, ![6144, 256]⟩
abbrev S6144 : Shape := ⟨1, ![6144]⟩
abbrev S2048x2048 : Shape := ⟨2, ![2048, 2048]⟩
abbrev S2048 : Shape := ⟨1, ![2048]⟩
abbrev S256x2048 : Shape := ⟨2, ![256, 2048]⟩
abbrev S1x256 : Shape := ⟨2, ![1, 256]⟩
abbrev S1x6144 : Shape := ⟨2, ![1, 6144]⟩
abbrev S1x2048 : Shape := ⟨2, ![1, 2048]⟩
abbrev S128x2048 : Shape := ⟨2, ![128, 2048]⟩
abbrev S128x256 : Shape := ⟨2, ![128, 256]⟩
abbrev S2048x256 : Shape := ⟨2, ![2048, 256]⟩

abbrev nBuf : Space → Nat
  | .hbm => 20
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S256x4096, .f32⟩
  | .hbm, ⟨3, _⟩ => ⟨S256, .f32⟩
  | .hbm, ⟨4, _⟩ => ⟨S6144x256, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S256x2048, .f32⟩
  | .hbm, ⟨9, _⟩ => ⟨S256x2048, .bf16⟩
  | .hbm, ⟨10, _⟩ => ⟨S256x2048, .f32⟩
  | .hbm, ⟨11, _⟩ => ⟨S256x2048, .bf16⟩
  | .hbm, ⟨12, _⟩ => ⟨S6144x256, .bf16⟩
  | .hbm, ⟨13, _⟩ => ⟨S2048x2048, .bf16⟩
  | .hbm, ⟨14, _⟩ => ⟨S1x256, .f32⟩
  | .hbm, ⟨15, _⟩ => ⟨S1x6144, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S256x2048, .bf16⟩
  | .local _ .vmem, ⟨5, _⟩ => ⟨S256x2048, .bf16⟩
  | .local _ .vmem, ⟨6, _⟩ => ⟨S1x256, .f32⟩
  | .local _ .vmem, ⟨7, _⟩ => ⟨S6144x256, .bf16⟩
  | .local _ .vmem, ⟨8, _⟩ => ⟨S1x6144, .f32⟩
  | .local _ .vmem, ⟨9, _⟩ => ⟨S2048x2048, .bf16⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6144x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S256x4096_S256x2048_0_0 : S256x4096.Slices ![0, 0] S256x2048
  bitsLt_bf16_f32 : FTy.bits .bf16 < FTy.bits .f32
  slices_S256x4096_S256x2048_0_2048 : S256x4096.Slices ![0, 2048] S256x2048
  shapeCasts_S256_S1x256 : S256.ShapeCasts S1x256
  shapeCasts_S6144_S1x6144 : S6144.ShapeCasts S1x6144
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S6144x256_S2048x256_0_0 : ∀ a, (![0, 0] : Fin 2 → Nat) a + S2048x256.size a ≤ S6144x256.size a
  h_S2048x256 : 0 < S2048x256.numel
  shapeCasts_S2048x256_S2048x256 : S2048x256.ShapeCasts S2048x256
  inb_S6144x256_S2048x256_2048_0 : ∀ a, (![2048, 0] : Fin 2 → Nat) a + S2048x256.size a ≤ S6144x256.size a
  inb_S6144x256_S2048x256_4096_0 : ∀ a, (![4096, 0] : Fin 2 → Nat) a + S2048x256.size a ≤ S6144x256.size a
  inb_S1x6144_S1x2048_0_0 : ∀ a, (![0, 0] : Fin 2 → Nat) a + S1x2048.size a ≤ S1x6144.size a
  h_S1x2048 : 0 < S1x2048.numel
  shapeCasts_S1x2048_S1x2048 : S1x2048.ShapeCasts S1x2048
  broadcasts_S1x2048_S128x2048 : S1x2048.Broadcasts S128x2048
  inb_S1x6144_S1x2048_0_2048 : ∀ a, (![0, 2048] : Fin 2 → Nat) a + S1x2048.size a ≤ S1x6144.size a
  inb_S1x6144_S1x2048_0_4096 : ∀ a, (![0, 4096] : Fin 2 → Nat) a + S1x2048.size a ≤ S1x6144.size a
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  dot_S128x2048_S256x2048_S128x256_1_1_0_0_n_n_wf : DotDims.WF S128x2048 S256x2048 S128x256 [1] [1] [0] [0] [] []
  dot_S128x256_S2048x256_S128x2048_1_1_0_0_n_n_wf : DotDims.WF S128x256 S2048x256 S128x2048 [1] [1] [0] [0] [] []
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6144x256.size a ≤ S6144x256.size a
  hwx0_5 : ∀ i : grid0.Coords, EltTy.bits .bf16 = 32 ∨ (Rect.block (s := S6144x256) S6144x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6144.size a ≤ S1x6144.size a
  hwx0_6 : ∀ i : grid0.Coords, EltTy.bits .f32 = 32 ∨ (Rect.block (s := S1x6144) S1x6144.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S8192x2048.size a
  hwx0_9 : ∀ i : grid0.Coords, EltTy.bits .f32 = 32 ∨ (Rect.block (s := S8192x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S8192x2048.size a
  hwx0_10 : ∀ i : grid0.Coords, EltTy.bits .f32 = 32 ∨ (Rect.block (s := S8192x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S8192x2048.size a
  hwx0_11 : ∀ i : grid0.Coords, EltTy.bits .f32 = 32 ∨ (Rect.block (s := S8192x2048) S128x2048.size (cc0_transform_11 i) (hinb0_11 i)).WholeWords (EltTy.packing .f32)

variable [Facts₀]

def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S6144x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S128x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S128x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S256x4096 : Shape := ⟨2, ![256, 4096]⟩
abbrev S256 : Shape := ⟨1, ![256]⟩
abbrev S6144x256 : Shape := ⟨2, ![6144, 256]⟩
abbrev S6144 : Shape := ⟨1, ![6144]⟩
abbrev S2048x2048 : Shape := ⟨2, ![2048, 2048]⟩
abbrev S2048 : Shape := ⟨1, ![2048]⟩
abbrev S8192x4096 : Shape := ⟨2, ![8192, 4096]⟩
abbrev S4096x256 : Shape := ⟨2, ![4096, 256]⟩
abbrev S8192x256 : Shape := ⟨2, ![8192, 256]⟩
abbrev S1x256 : Shape := ⟨2, ![1, 256]⟩
abbrev S_ : Shape := ⟨0, ![]⟩
abbrev S256x6144 : Shape := ⟨2, ![256, 6144]⟩
abbrev S8192x6144 : Shape := ⟨2, ![8192, 6144]⟩
abbrev S1x6144 : Shape := ⟨2, ![1, 6144]⟩
abbrev S1x2048 : Shape := ⟨2, ![1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S256x4096, .f32⟩
  | .hbm, ⟨3, _⟩ => ⟨S256, .f32⟩
  | .hbm, ⟨4, _⟩ => ⟨S6144x256, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S8192x4096, .f32⟩
  | .hbm, ⟨9, _⟩ => ⟨S4096x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S256x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .i1⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S2048x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v21 : Ref sig .tc := ⟨.hbm, 52, rfl⟩
abbrev main_cst_1 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_2 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_cst_5 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  transposes_S256x4096_S4096x256_1_0 : S256x4096.Transposes [1, 0] S4096x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S6144x256_S256x6144_1_0 : S6144x256.Transposes [1, 0] S256x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x4096_S4096x256_S8192x256_1_0_0_1_n_n_wf : DotDims.WF S8192x4096 S4096x256 S8192x256 [1] [0] [0] [1] [] []
  dot_S8192x256_S256x6144_S8192x6144_1_0_0_1_n_n_wf : DotDims.WF S8192x256 S256x6144 S8192x6144 [1] [0] [0] [1] [] []
  dot_S8192x2048_S2048x2048_S8192x2048_1_0_0_1_n_n_wf : DotDims.WF S8192x2048 S2048x2048 S8192x2048 [1] [0] [0] [1] [] []

variable [Facts₀]

def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x6144_S8192x6144_1_0_0_1_n_n : DotDims S8192x256 S256x6144 S8192x6144 where
  lhsContracting := [1]
  rhsContracting := [0]
  lhsNonContracting := [0]
  rhsNonContracting := [1]
  lhsBatch := []
  rhsBatch := []
  wf := dot_S8192x256_S256x6144_S8192x6144_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KernelDots.lean ====
/-
  The kernel's three matrix products read at an index. Each contracts the LAST axis of both operands (the right operand is
  used transposed), into a zero accumulator; on the extended reals entry `(p, c)` is the plain sum
  `∑ₖ a (p, k) · b (c, k)`: no rounding and no order of accumulation is left in it.
-/
import proofs.«123418_j25323127177574_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ### `[128, 2048] × [256, 2048]ᵀ → [128, 256]` -/

abbrev D1 := dot_S128x2048_S256x2048_S128x256_1_1_0_0_n_n

theorem D1_l0 (i : S128x256.Idx) (q : D1.contr.Idx) : (D1.lhsIdx i q 0).val = (i 0).val := by
  unfold DotDims.lhsIdx
  rw [dif_neg (show ¬(0 : Fin S128x2048.rank) ∈ D1.lhsBatch by decide), dif_pos (show (0 : Fin S128x2048.rank) ∈ D1.lhsNonContracting by decide)]
  rfl
theorem D1_l1 (i : S128x256.Idx) (q : D1.contr.Idx) : (D1.lhsIdx i q 1).val = (q ⟨0, by decide⟩).val :=
  D1.lhsIdx_val_of_single rfl i q
theorem D1_r0 (i : S128x256.Idx) (q : D1.contr.Idx) : (D1.rhsIdx i q 0).val = (i 1).val := by
  unfold DotDims.rhsIdx
  rw [dif_neg (show ¬(0 : Fin S256x2048.rank) ∈ D1.rhsBatch by decide), dif_pos (show (0 : Fin S256x2048.rank) ∈ D1.rhsNonContracting by decide)]
  rfl
theorem D1_r1 (i : S128x256.Idx) (q : D1.contr.Idx) : (D1.rhsIdx i q 1).val = (q ⟨0, by decide⟩).val :=
  D1.rhsIdx_val_of_single rfl i q

/-- Entry `(p, c)` of the product into a zero accumulator: row `p` of the left operand against row `c` of the right. -/
theorem D1_apply {φ₁ φ₂ : FTy} (a : FVec Ideal S128x2048 φ₁) (b : FVec Ideal S256x2048 φ₂) (p : Fin 128) (c : Fin 256) :
    matmul (F := Ideal) D1 none a b (constant S128x256 .f32 0x00000000#32) (ix2 p c) = ∑ k : Fin 2048, a (ix2 p k) * b (ix2 c k) := by
  simp only [matmul]
  rw [Ideal.matmul_constant_zero_apply, ← Equiv.sum_comp (contrEquiv1 D1 2048 rfl rfl).symm]
  refine Finset.sum_congr rfl fun k _ => ?_
  have hk := contrEquiv1_symm_val D1 2048 rfl rfl k
  have el : D1.lhsIdx (ix2 p c) ((contrEquiv1 D1 2048 rfl rfl).symm k) = ix2 p k := funext fun ax => Fin.ext (by
    match ax with
    | ⟨0, _⟩ => exact D1_l0 _ _
    | ⟨1, _⟩ => exact (D1_l1 _ _).trans hk)
  have er : D1.rhsIdx (ix2 p c) ((contrEquiv1 D1 2048 rfl rfl).symm k) = ix2 c k := funext fun ax => Fin.ext (by
    match ax with
    | ⟨0, _⟩ => exact D1_r0 _ _
    | ⟨1, _⟩ => exact (D1_r1 _ _).trans hk)
  rw [el, er]

/-! ### `[128, 256] × [2048, 256]ᵀ → [128, 2048]` -/

abbrev D2 := dot_S128x256_S2048x256_S128x2048_1_1_0_0_n_n

theorem D2_l0 (i : S128x2048.Idx) (q : D2.contr.Idx) : (D2.lhsIdx i q 0).val = (i 0).val := by
  unfold DotDims.lhsIdx
  rw [dif_neg (show ¬(0 : Fin S128x256.rank) ∈ D2.lhsBatch by decide), dif_pos (show (0 : Fin S128x256.rank) ∈ D2.lhsNonContracting by decide)]
  rfl
theorem D2_l1 (i : S128x2048.Idx) (q : D2.contr.Idx) : (D2.lhsIdx i q 1).val = (q ⟨0, by decide⟩).val :=
  D2.lhsIdx_val_of_single rfl i q
theorem D2_r0 (i : S128x2048.Idx) (q : D2.contr.Idx) : (D2.rhsIdx i q 0).val = (i 1).val := by
  unfold DotDims.rhsIdx
  rw [dif_neg (show ¬(0 : Fin S2048x256.rank) ∈ D2.rhsBatch by decide), dif_pos (show (0 : Fin S2048x256.rank) ∈ D2.rhsNonContracting by decide)]
  rfl
theorem D2_r1 (i : S128x2048.Idx) (q : D2.contr.Idx) : (D2.rhsIdx i q 1).val = (q ⟨0, by decide⟩).val :=
  D2.rhsIdx_val_of_single rfl i q

/-- Entry `(p, c)` of the product into a zero accumulator: row `p` of the left operand against row `c` of the right. -/
theorem D2_apply {φ₁ φ₂ : FTy} (a : FVec Ideal S128x256 φ₁) (b : FVec Ideal S2048x256 φ₂) (p : Fin 128) (c : Fin 2048) :
    matmul (F := Ideal) D2 none a b (constant S128x2048 .f32 0x00000000#32) (ix2 p c) = ∑ k : Fin 256, a (ix2 p k) * b (ix2 c k) := by
  simp only [matmul]
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 p c) ((contrEquiv1 D2 256 rfl rfl).symm k) = ix2 p k := funext fun ax => Fin.ext (by
    match ax with
    | ⟨0, _⟩ => exact D2_l0 _ _
    | ⟨1, _⟩ => exact (D2_l1 _ _).trans hk)
  have er : D2.rhsIdx (ix2 p c) ((contrEquiv1 D2 256 rfl rfl).symm k) = ix2 c k := funext fun ax => Fin.ext (by
    match ax with
    | ⟨0, _⟩ => exact D2_r0 _ _
    | ⟨1, _⟩ => exact (D2_r1 _ _).trans hk)
  rw [el, er]

/-! ### `[128, 2048] × [2048, 2048]ᵀ → [128, 2048]` -/

abbrev D3 := dot_S128x2048_S2048x2048_S128x2048_1_1_0_0_n_n

theorem D3_l0 (i : S128x2048.Idx) (q : D3.contr.Idx) : (D3.lhsIdx i q 0).val = (i 0).val := by
  unfold DotDims.lhsIdx
  rw [dif_neg (show ¬(0 : Fin S128x2048.rank) ∈ D3.lhsBatch by decide), dif_pos (show (0 : Fin S128x2048.rank) ∈ D3.lhsNonContracting by decide)]
  rfl
theorem D3_l1 (i : S128x2048.Idx) (q : D3.contr.Idx) : (D3.lhsIdx i q 1).val = (q ⟨0, by decide⟩).val :=
  D3.lhsIdx_val_of_single rfl i q
theorem D3_r0 (i : S128x2048.Idx) (q : D3.contr.Idx) : (D3.rhsIdx i q 0).val = (i 1).val := by
  unfold DotDims.rhsIdx
  rw [dif_neg (show ¬(0 : Fin S2048x2048.rank) ∈ D3.rhsBatch by decide), dif_pos (show (0 : Fin S2048x2048.rank) ∈ D3.rhsNonContracting by decide)]
  rfl
theorem D3_r1 (i : S128x2048.Idx) (q : D3.contr.Idx) : (D3.rhsIdx i q 1).val = (q ⟨0, by decide⟩).val :=
  D3.rhsIdx_val_of_single rfl i q

/-- Entry `(p, c)` of the product into a zero accumulator: row `p` of the left operand against row `c` of the right. -/
theorem D3_apply {φ₁ φ₂ : FTy} (a : FVec Ideal S128x2048 φ₁) (b : FVec Ideal S2048x2048 φ₂) (p : Fin 128) (c : Fin 2048) :
    matmul (F := Ideal) D3 none a b (constant S128x2048 .f32 0x00000000#32) (ix2 p c) = ∑ k : Fin 2048, a (ix2 p k) * b (ix2 c k) := by
  simp only [matmul]
  rw [Ideal.matmul_constant_zero_apply, ← Equiv.sum_comp (contrEquiv1 D3 2048 rfl rfl).symm]
  refine Finset.sum_congr rfl fun k _ => ?_
  have hk := contrEquiv1_symm_val D3 2048 rfl rfl k
  have el : D3.lhsIdx (ix2 p c) ((contrEquiv1 D3 2048 rfl rfl).symm k) = ix2 p k := funext fun ax => Fin.ext (by
    match ax with
    | ⟨0, _⟩ => exact D3_l0 _ _
    | ⟨1, _⟩ => exact (D3_l1 _ _).trans hk)
  have er : D3.rhsIdx (ix2 p c) ((contrEquiv1 D3 2048 rfl rfl).symm k) = ix2 c k := funext fun ax => Fin.ext (by
    match ax with
    | ⟨0, _⟩ => exact D3_r0 _ _
    | ⟨1, _⟩ => exact (D3_r1 _ _).trans hk)
  rw [el, er]

end Cert.KernelIdeal.Dots

end
-- ==== Proof.Update.lean ====
/-
  The gated state update, one output entry at a time, as formulas on the extended reals.

  For one row of the state `h` and of the velocity `v` (2048 entries each) the programs compute
    ctrl c   = silu ((∑ₖ h k · Wh c k + ∑ₖ v k · Wv c k) + b_in c)                      (256 entries)
    raw  j'  = ∑_c ctrl c · W_out j' c + b_out j'                                       (6144 entries: three chunks of 2048)
    μ j      = mu j + ∑ₖ h k · W_mu j k
    v' j     = min 10 (max (-10) (σ (raw j) · v j − min (softplus (raw (2048 + j))) 2 · (h j − μ j)))
    h' j     = h j + (0.1 · σ (raw (4096 + j))) · v' j
  with σ the logistic function. Everything is stated over READERS (functions from coordinates to values), so that the
  same formulas serve a 128-row block of the kernel and the whole arrays of the reference.
-/
import Idealize.ShloMosaic.PureOps.Ideal
import Idealize.ShloMosaic.PureOps.Ideal.Laws
import Idealize.ShloMosaic.Lib.ValueIdx

noncomputable section

namespace Cert.Update

open Idealize.ShloMosaic

/-! ## The float words that occur -/

/-- The zero word. -/
abbrev w0 : EReal := Ideal.ofBits .f32 0x00000000#32
/-- The word of 1.0. -/
abbrev w1 : EReal := Ideal.ofBits .f32 0x3F800000#32
/-- The word of 2.0. -/
abbrev w2 : EReal := Ideal.ofBits .f32 0x40000000#32
/-- The word of 10.0. -/
abbrev w10 : EReal := Ideal.ofBits .f32 0x41200000#32
/-- The word of -10.0. -/
abbrev wm10 : EReal := Ideal.ofBits .f32 0xC1200000#32
/-- The f32 word nearest one tenth: the same word in both programs, never evaluated. -/
abbrev wTenth : EReal := Ideal.ofBits .f32 0x3DCCCCCD#32

/-- The word of 1.0 denotes the real 1. -/
theorem w1_eq : w1 = 1 := by
  simp [Ideal.ofBits, Ideal.ieee, -EReal.coe_mul]; norm_num

/-! ## The scalar functions -/

/-- `x · σ(x)`. -/
def silu (x : EReal) : EReal := x * Ideal.logistic x

/-- softplus in the spelling of `logaddexp(x, 0)`: `max x 0 + log1p (exp (0 − |x − 0|))`, behind a guard `x − 0 ≠ x − 0`
    (a NaN test) that selects `x + 0` instead. On the extended reals the guard never fires. -/
def softplus (x : EReal) : EReal :=
  Scalar.select (Ideal.cmp .one (x - w0) (x - w0)) (x + w0)
    (max x w0 + Ideal.log1p (Ideal.exp (w0 - max (x - w0) (-(x - w0)))))

/-- The host spells the logistic function out as `1 / (1 + exp (−x))` with the word of 1.0: the same function. -/
theorem logistic_spelled (x : EReal) : Ideal.div w1 (w1 + Ideal.exp (-x)) = Ideal.logistic x := by
  rw [w1_eq]; rfl

/-- The host spells softplus with the unordered test `≠` and a negation where the kernel has the ordered test and a
    subtraction from zero: the same function (`0 − a = −a`; both tests compare a value with itself). -/
theorem softplus_spelled (x : EReal) :
    Scalar.select (Ideal.cmp .une (x - w0) (x - w0)) (x + w0)
      (max x w0 + Ideal.log1p (Ideal.exp (-(max (x - w0) (-(x - w0)))))) = softplus x := by
  unfold softplus
  have hz : w0 - max (x - w0) (-(x - w0)) = -(max (x - w0) (-(x - w0))) := by
    rw [show w0 = 0 from Ideal.ofBits_zero_f32, sub_eq_add_neg, zero_add]
  rw [hz]
  rfl

/-! ## One row -/

section Row

variable (h v : Fin 2048 → EReal)                                     -- one row of the state and of the velocity
  (wh wv : Fin 256 → Fin 2048 → EReal) (bin : Fin 256 → EReal)         -- the controller's input weights (two halves) and bias
  (wout : Fin 6144 → Fin 256 → EReal) (bout : Fin 6144 → EReal)        -- its output weights and bias, the three chunks stacked
  (wmu : Fin 2048 → Fin 2048 → EReal) (mu : Fin 2048 → EReal)          -- the projection of the state and its offset

/-- The controller's hidden value `c`. -/
def ctrl (c : Fin 256) : EReal :=
  silu ((∑ k : Fin 2048, h k * wh c k + ∑ k : Fin 2048, v k * wv c k) + bin c)

/-- The controller's output `j'` (before the gate functions). -/
def raw (j' : Fin 6144) : EReal :=
  ∑ c : Fin 256, ctrl h v wh wv bin c * wout j' c + bout j'

/-- The contextual target `μ j`. -/
def muCtx (j : Fin 2048) : EReal :=
  mu j + ∑ k : Fin 2048, h k * wmu j k

/-- Row `j` of chunk `a` of the controller's output. -/
abbrev chunk (a : Fin 3) (j : Fin 2048) : Fin 6144 := ⟨a.val * 2048 + j.val, by have := a.isLt; have := j.isLt; omega⟩

/-- The new velocity `v' j`. -/
def vNext (j : Fin 2048) : EReal :=
  min w10 (max wm10 (Ideal.logistic (raw h v wh wv bin wout bout (chunk 0 j)) * v j
    - min (softplus (raw h v wh wv bin wout bout (chunk 1 j))) w2 * (h j - muCtx h wmu mu j)))

/-- The new state `h' j`. -/
def hNext (j : Fin 2048) : EReal :=
  h j + (wTenth * Ideal.logistic (raw h v wh wv bin wout bout (chunk 2 j))) * vNext h v wh wv bin wout bout wmu mu j

end Row

/-! ## The three result arrays as functions of the eight argument arrays -/

section Arrays

open Idealize.ShloMosaic.ValueIdx

/-- A matrix of extended reals. -/
abbrev Mat (n0 n1 : Nat) := (⟨2, ![n0, n1]⟩ : Shape).Idx → EReal
/-- A vector of extended reals. -/
abbrev Vect (n : Nat) := (⟨1, ![n]⟩ : Shape).Idx → EReal

/-- Column `k` of the first half of the controller's 4096 input columns (it multiplies the state). -/
abbrev lo (k : Fin 2048) : Fin 4096 := ⟨k.val, by have := k.isLt; omega⟩
/-- Column `k` of the second half (it multiplies the velocity). -/
abbrev hi (k : Fin 2048) : Fin 4096 := ⟨2048 + k.val, by have := k.isLt; omega⟩

variable (x0 x1 : Mat 8192 2048) (x2 : Mat 256 4096) (x3 : Vect 256) (x4 : Mat 6144 256) (x5 : Vect 6144)
  (x6 : Mat 2048 2048) (x7 : Vect 2048)

/-- The new state: entry `(r, j)` is `hNext` of row `r` of `h` and `v` and of the weights. -/
def newState : Mat 8192 2048 := fun i =>
  hNext (fun k => x0 (ix2 (i 0) k)) (fun k => x1 (ix2 (i 0) k)) (fun c k => x2 (ix2 c (lo k))) (fun c k => x2 (ix2 c (hi k)))
    (fun c => x3 (ix1 c)) (fun j c => x4 (ix2 j c)) (fun j => x5 (ix1 j)) (fun j k => x6 (ix2 j k)) (fun j => x7 (ix1 j)) (i 1)

/-- The new velocity. -/
def newVelocity : Mat 8192 2048 := fun i =>
  vNext (fun k => x0 (ix2 (i 0) k)) (fun k => x1 (ix2 (i 0) k)) (fun c k => x2 (ix2 c (lo k))) (fun c k => x2 (ix2 c (hi k)))
    (fun c => x3 (ix1 c)) (fun j c => x4 (ix2 j c)) (fun j => x5 (ix1 j)) (fun j k => x6 (ix2 j k)) (fun j => x7 (ix1 j)) (i 1)

/-- The contextual target. -/
def target : Mat 8192 2048 := fun i =>
  muCtx (fun k => x0 (ix2 (i 0) k)) (fun j k => x6 (ix2 j k)) (fun j => x7 (ix1 j)) (i 1)

end Arrays

/-! ## A sum over 4096 positions, half and half -/

/-- In any additive commutative monoid a sum over 4096 consecutive positions is the sum over the first 2048 plus the sum
    over the last 2048. -/
theorem sum_halves {M : Type*} [AddCommMonoid M] (f : Fin 4096 → M) :
    ∑ k : Fin 4096, f k = ∑ k : Fin 2048, f ⟨k.val, by have := k.isLt; omega⟩ + ∑ k : Fin 2048, f ⟨2048 + k.val, by have := k.isLt; omega⟩ := by
  have e := Fin.sum_univ_add (M := M) (a := 2048) (b := 2048) f
  exact e

end Cert.Update

end
-- ==== Proof.KernelRow.lean ====
/-
  The kernel body's values read at one entry `(p, q)` of a 128-row block: each is the row formula of Update.lean over
  row `p` of the block's state and velocity and over the weights as the body loads them.
-/
import proofs.«123418_j25323127177574_2_alg».proof.Proof.Gen.KernelIdeal.Skeleton
import proofs.«123418_j25323127177574_2_alg».proof.Proof.KernelDots
import proofs.«123418_j25323127177574_2_alg».proof.Proof.Update
import Idealize.ShloMosaic.Lib.ValueLayout
import Idealize.ShloMosaic.Lib.Pipeline.Value

noncomputable section

namespace Cert.KernelIdeal.Row

open Cert.KernelIdeal Cert.KernelIdeal.Gen Cert.KernelIdeal.Dots Idealize.ShloMosaic Idealize.ShloMosaic.ValueIdx
open Cert.Update

/-- The contextual target at `(p, j)`: the offset's entry `j` plus row `p` of the (narrowed) state against row `j` of the
    projection's weight. -/
theorem mu_at (v2 : FVec Ideal S128x2048 .bf16) (v57 : Vec Ideal S2048x2048 .bf16) (v59 : Vec Ideal S1x2048 .f32)
    (p : Fin 128) (j : Fin 2048) :
    k0_pay6 v2 v57 v59 (ix2 p j)
      = muCtx (fun k => v2 (ix2 p k)) (fun j k => v57 (ix2 j k)) (fun j => v59 (ix2 (0 : Fin 1) j)) j := by
  refine (show k0_pay6 v2 v57 v59 (ix2 p j)
      = broadcastTo S128x2048 (shapeCast S1x2048 v59 shapeCasts_S1x2048_S1x2048) broadcasts_S1x2048_S128x2048 (ix2 p j)
        + matmul (F := Ideal) D3 none v2 (shapeCast S2048x2048 v57 shapeCasts_S2048x2048_S2048x2048)
            (constant S128x2048 .f32 0x00000000#32) (ix2 p j) from rfl).trans ?_
  rw [D3_apply, broadcastTo_1b_ab_apply, shapeCast_self, shapeCast_self]
  rfl

/-- The controller's hidden value at `(p, c)`. -/
theorem ctrl_at (v0 v1 : Vec Ideal S128x2048 .f32) (v4 v6 : Vec Ideal S256x2048 .bf16) (v11 : Vec Ideal S1x256 .f32)
    (p : Fin 128) (c : Fin 256) :
    k0_pay2 v0 v1 v4 v6 v11 (ix2 p c)
      = ctrl (fun k => v0 (ix2 p k)) (fun k => v1 (ix2 p k)) (fun c k => v4 (ix2 c k)) (fun c k => v6 (ix2 c k))
          (fun c => v11 (ix2 (0 : Fin 1) c)) c := by
  refine (show k0_pay2 v0 v1 v4 v6 v11 (ix2 p c)
      = silu ((matmul (F := Ideal) D1 none (truncf .bf16 v0 bitsLt_bf16_f32) (shapeCast S256x2048 v4 shapeCasts_S256x2048_S256x2048)
              (constant S128x256 .f32 0x00000000#32) (ix2 p c)
            + matmul (F := Ideal) D1 none (truncf .bf16 v1 bitsLt_bf16_f32) (shapeCast S256x2048 v6 shapeCasts_S256x2048_S256x2048)
              (constant S128x256 .f32 0x00000000#32) (ix2 p c))
          + broadcastTo S128x256 (shapeCast S1x256 v11 shapeCasts_S1x256_S1x256) broadcasts_S1x256_S128x256 (ix2 p c)) from rfl).trans ?_
  rw [D1_apply, D1_apply, broadcastTo_1b_ab_apply, shapeCast_self, shapeCast_self, shapeCast_self]
  rfl

/-- The first chunk of the controller's output at `(p, j)`: the hidden row `p` against row `j` of the chunk's weight, plus the chunk's bias at `j`. -/
theorem chunkA_at (v0 v1 : Vec Ideal S128x2048 .f32) (v4 v6 : Vec Ideal S256x2048 .bf16) (v11 : Vec Ideal S1x256 .f32)
    (v18 : Vec Ideal S2048x256 .bf16) (v25 : Vec Ideal S1x2048 .f32) (p : Fin 128) (j : Fin 2048) :
    k0_pay4 v0 v1 v4 v6 v11 v18 v25 (ix2 p j)
      = ∑ c : Fin 256, ctrl (fun k => v0 (ix2 p k)) (fun k => v1 (ix2 p k)) (fun c k => v4 (ix2 c k)) (fun c k => v6 (ix2 c k)) (fun c => v11 (ix2 (0 : Fin 1) c)) c * v18 (ix2 j c) + v25 (ix2 (0 : Fin 1) j) := by
  refine (show k0_pay4 v0 v1 v4 v6 v11 v18 v25 (ix2 p j)
      = matmul (F := Ideal) D2 none (k0_pay2 v0 v1 v4 v6 v11) (shapeCast S2048x256 v18 shapeCasts_S2048x256_S2048x256)
            (constant S128x2048 .f32 0x00000000#32) (ix2 p j)
        + broadcastTo S128x2048 (shapeCast S1x2048 v25 shapeCasts_S1x2048_S1x2048) broadcasts_S1x2048_S128x2048 (ix2 p j) from rfl).trans ?_
  rw [D2_apply, broadcastTo_1b_ab_apply, shapeCast_self, shapeCast_self]
  simp only [ctrl_at]

/-- The second chunk, likewise. -/
theorem chunkB_at (v0 v1 : Vec Ideal S128x2048 .f32) (v4 v6 : Vec Ideal S256x2048 .bf16) (v11 : Vec Ideal S1x256 .f32)
    (v20 : Vec Ideal S2048x256 .bf16) (v30 : Vec Ideal S1x2048 .f32) (p : Fin 128) (j : Fin 2048) :
    k0_pay5 v0 v1 v4 v6 v11 v20 v30 (ix2 p j)
      = ∑ c : Fin 256, ctrl (fun k => v0 (ix2 p k)) (fun k => v1 (ix2 p k)) (fun c k => v4 (ix2 c k)) (fun c k => v6 (ix2 c k)) (fun c => v11 (ix2 (0 : Fin 1) c)) c * v20 (ix2 j c) + v30 (ix2 (0 : Fin 1) j) := by
  refine (show k0_pay5 v0 v1 v4 v6 v11 v20 v30 (ix2 p j)
      = matmul (F := Ideal) D2 none (k0_pay2 v0 v1 v4 v6 v11) (shapeCast S2048x256 v20 shapeCasts_S2048x256_S2048x256)
            (constant S128x2048 .f32 0x00000000#32) (ix2 p j)
        + broadcastTo S128x2048 (shapeCast S1x2048 v30 shapeCasts_S1x2048_S1x2048) broadcasts_S1x2048_S128x2048 (ix2 p j) from rfl).trans ?_
  rw [D2_apply, broadcastTo_1b_ab_apply, shapeCast_self, shapeCast_self]
  simp only [ctrl_at]

/-- The new velocity at `(p, j)`: every operation here is pointwise, so the entry is the formula of the entries. -/
theorem velocity_at (v0 v1 : Vec Ideal S128x2048 .f32) (v2 : FVec Ideal S128x2048 .bf16) (v28 v33 : FVec Ideal S128x2048 .f32)
    (v57 : Vec Ideal S2048x2048 .bf16) (v59 : Vec Ideal S1x2048 .f32) (p : Fin 128) (j : Fin 2048) :
    k0_pay7 v0 v1 v2 v28 v33 v57 v59 (ix2 p j)
      = min w10 (max wm10 (Ideal.logistic (v28 (ix2 p j)) * v1 (ix2 p j)
          - min (softplus (v33 (ix2 p j))) w2 * (v0 (ix2 p j) - k0_pay6 v2 v57 v59 (ix2 p j)))) := rfl

/-- The new state at `(p, j)`: the third chunk of the controller's output goes through the logistic function and scales
    the new velocity by a tenth. -/
theorem state_at (v0 v1 : Vec Ideal S128x2048 .f32) (v2 : FVec Ideal S128x2048 .bf16) (v17 : FVec Ideal S128x256 .bf16)
    (v23 : FVec Ideal S2048x256 .bf16) (v28 v33 : FVec Ideal S128x2048 .f32) (v35 : Vec Ideal S1x2048 .f32)
    (v57 : Vec Ideal S2048x2048 .bf16) (v59 : Vec Ideal S1x2048 .f32) (p : Fin 128) (j : Fin 2048) :
    k0_pay8 v0 v1 v2 v17 v23 v28 v33 (constant S128x2048 .f32 0x00000000#32) v35 v57 v59 (ix2 p j)
      = v0 (ix2 p j) + (wTenth * Ideal.logistic (∑ c : Fin 256, v17 (ix2 p c) * v23 (ix2 j c) + v35 (ix2 (0 : Fin 1) j)))
          * k0_pay7 v0 v1 v2 v28 v33 v57 v59 (ix2 p j) := by
  refine (show k0_pay8 v0 v1 v2 v17 v23 v28 v33 (constant S128x2048 .f32 0x00000000#32) v35 v57 v59 (ix2 p j)
      = v0 (ix2 p j) + (wTenth * Ideal.logistic (matmul (F := Ideal) D2 none v17 v23 (constant S128x2048 .f32 0x00000000#32) (ix2 p j)
          + broadcastTo S128x2048 (shapeCast S1x2048 v35 shapeCasts_S1x2048_S1x2048) broadcasts_S1x2048_S128x2048 (ix2 p j)))
          * k0_pay7 v0 v1 v2 v28 v33 v57 v59 (ix2 p j) from rfl).trans ?_
  rw [D2_apply, broadcastTo_1b_ab_apply, shapeCast_self]

end Cert.KernelIdeal.Row

end
-- ==== Proof.KernelBlock.lean ====
/-
  What the kernel body leaves in each of its three output blocks, read at one entry `(p, q)`: the row formulas of
  Update.lean over row `p` of the state's and the velocity's blocks and over the weights' blocks. The body loads the
  controller's output weight and bias in three chunks of 2048 rows (entries) each: chunk `a`, row `j` is row
  `a · 2048 + j` of the whole.
-/
import proofs.«123418_j25323127177574_2_alg».proof.Proof.Gen.KernelIdeal.Frame
import proofs.«123418_j25323127177574_2_alg».proof.Proof.KernelRow

noncomputable section

namespace Cert.KernelIdeal.Block

open Cert.KernelIdeal Cert.KernelIdeal.Gen Cert.KernelIdeal.Row Idealize.ShloMosaic Idealize.ShloMosaic.ValueIdx
open Cert.Update

theorem zeros2 : (![0, 0] : Fin 2 → Nat) = fun _ => 0 := funext fun a => by fin_cases a <;> rfl

/-! ## The chunked loads -/

theorem wout_chunk0 (x5 : Vec Ideal S6144x256 .bf16) (j : Fin 2048) (c : Fin 256) :
    View.ld x5 r0_3 (ix2 j c) = x5 (ix2 (chunk 0 j) c) :=
  congrArg x5 (funext fun ax => Fin.ext (by
    match ax with
    | ⟨0, _⟩ => show 0 + 1 * j.val = 0 * 2048 + j.val; omega
    | ⟨1, _⟩ => show 0 + 1 * c.val = c.val; omega))

theorem wout_chunk1 (x5 : Vec Ideal S6144x256 .bf16) (j : Fin 2048) (c : Fin 256) :
    View.ld x5 r0_4 (ix2 j c) = x5 (ix2 (chunk 1 j) c) :=
  congrArg x5 (funext fun ax => Fin.ext (by
    match ax with
    | ⟨0, _⟩ => show 2048 + 1 * j.val = 1 * 2048 + j.val; omega
    | ⟨1, _⟩ => show 0 + 1 * c.val = c.val; omega))

theorem wout_chunk2 (x5 : Vec Ideal S6144x256 .bf16) (j : Fin 2048) (c : Fin 256) :
    View.ld x5 r0_5 (ix2 j c) = x5 (ix2 (chunk 2 j) c) :=
  congrArg x5 (funext fun ax => Fin.ext (by
    match ax with
    | ⟨0, _⟩ => show 4096 + 1 * j.val = 2 * 2048 + j.val; omega
    | ⟨1, _⟩ => show 0 + 1 * c.val = c.val; omega))

theorem bout_chunk0 (x6 : Vec Ideal S1x6144 .f32) (j : Fin 2048) :
    View.ld x6 r0_6 (ix2 (0 : Fin 1) j) = x6 (ix2 (0 : Fin 1) (chunk 0 j)) :=
  congrArg x6 (funext fun ax => Fin.ext (by
    match ax with
    | ⟨0, _⟩ => show 0 + 1 * 0 = 0; omega
    | ⟨1, _⟩ => show 0 + 1 * j.val = 0 * 2048 + j.val; omega))

theorem bout_chunk1 (x6 : Vec Ideal S1x6144 .f32) (j : Fin 2048) :
    View.ld x6 r0_7 (ix2 (0 : Fin 1) j) = x6 (ix2 (0 : Fin 1) (chunk 1 j)) :=
  congrArg x6 (funext fun ax => Fin.ext (by
    match ax with
    | ⟨0, _⟩ => show 0 + 1 * 0 = 0; omega
    | ⟨1, _⟩ => show 2048 + 1 * j.val = 1 * 2048 + j.val; omega))

theorem bout_chunk2 (x6 : Vec Ideal S1x6144 .f32) (j : Fin 2048) :
    View.ld x6 r0_8 (ix2 (0 : Fin 1) j) = x6 (ix2 (0 : Fin 1) (chunk 2 j)) :=
  congrArg x6 (funext fun ax => Fin.ext (by
    match ax with
    | ⟨0, _⟩ => show 0 + 1 * 0 = 0; omega
    | ⟨1, _⟩ => show 4096 + 1 * j.val = 2 * 2048 + j.val; omega))

/-! ## The controller's first two output chunks -/

/-- The first chunk of the controller's output at `(p, q)`. -/
theorem alpha_at (x0 x1 : Vec Ideal S128x2048 .f32) (x2 x3 : Vec Ideal S256x2048 .bf16) (x4 : Vec Ideal S1x256 .f32) (x5 : Vec Ideal S6144x256 .bf16) (x6 : Vec Ideal S1x6144 .f32) (p : Fin 128) (q : Fin 2048) :
    k0_pay4 x0 x1 x2 x3 x4 (View.ld x5 r0_3) (View.ld x6 r0_6) (ix2 p q) = raw (fun k => x0 (ix2 p k)) (fun k => x1 (ix2 p k)) (fun c k => x2 (ix2 c k)) (fun c k => x3 (ix2 c k)) (fun c => x4 (ix2 (0 : Fin 1) c)) (fun j c => x5 (ix2 j c)) (fun j => x6 (ix2 (0 : Fin 1) j)) (chunk 0 q) := by
  refine (chunkA_at x0 x1 x2 x3 x4 (View.ld x5 r0_3) (View.ld x6 r0_6) p q).trans ?_
  rw [bout_chunk0]
  exact congrArg (· + x6 (ix2 (0 : Fin 1) (chunk 0 q))) (Finset.sum_congr rfl fun c _ => by rw [wout_chunk0])

/-- The second chunk at `(p, q)`. -/
theorem beta_at (x0 x1 : Vec Ideal S128x2048 .f32) (x2 x3 : Vec Ideal S256x2048 .bf16) (x4 : Vec Ideal S1x256 .f32) (x5 : Vec Ideal S6144x256 .bf16) (x6 : Vec Ideal S1x6144 .f32) (p : Fin 128) (q : Fin 2048) :
    k0_pay5 x0 x1 x2 x3 x4 (View.ld x5 r0_4) (View.ld x6 r0_7) (ix2 p q) = raw (fun k => x0 (ix2 p k)) (fun k => x1 (ix2 p k)) (fun c k => x2 (ix2 c k)) (fun c k => x3 (ix2 c k)) (fun c => x4 (ix2 (0 : Fin 1) c)) (fun j c => x5 (ix2 j c)) (fun j => x6 (ix2 (0 : Fin 1) j)) (chunk 1 q) := by
  refine (chunkB_at x0 x1 x2 x3 x4 (View.ld x5 r0_4) (View.ld x6 r0_7) p q).trans ?_
  rw [bout_chunk1]
  exact congrArg (· + x6 (ix2 (0 : Fin 1) (chunk 1 q))) (Finset.sum_congr rfl fun c _ => by rw [wout_chunk1])

/-! ## The three output blocks -/

/-- The target's block at `(p, q)`. -/
theorem target_at (x0 x1 : Vec Ideal S128x2048 .f32) (x2 x3 : Vec Ideal S256x2048 .bf16) (x4 : Vec Ideal S1x256 .f32) (x5 : Vec Ideal S6144x256 .bf16) (x6 : Vec Ideal S1x6144 .f32) (x7 : Vec Ideal S2048x2048 .bf16) (x8 : Vec Ideal S1x2048 .f32) (p : Fin 128) (q : Fin 2048) :
    out0_11 x0 x1 x2 x3 x4 x5 x6 x7 x8 (ix2 p q) = muCtx (fun k => x0 (ix2 p k)) (fun j k => x7 (ix2 j k)) (fun j => x8 (ix2 (0 : Fin 1) j)) q := by
  unfold out0_11
  rw [View.canon_unit_zero zeros2]
  simp only [View.ld_unit_zero (S := S128x2048) zeros2, View.ld_unit_zero (S := S2048x2048) zeros2, View.ld_unit_zero (S := S1x2048) zeros2]
  exact mu_at (k0_pay1 x0) x7 x8 p q

/-- The velocity's block at `(p, q)`. -/
theorem velocity_at' (x0 x1 : Vec Ideal S128x2048 .f32) (x2 x3 : Vec Ideal S256x2048 .bf16) (x4 : Vec Ideal S1x256 .f32) (x5 : Vec Ideal S6144x256 .bf16) (x6 : Vec Ideal S1x6144 .f32) (x7 : Vec Ideal S2048x2048 .bf16) (x8 : Vec Ideal S1x2048 .f32) (p : Fin 128) (q : Fin 2048) :
    out0_10 x0 x1 x2 x3 x4 x5 x6 x7 x8 (ix2 p q) = vNext (fun k => x0 (ix2 p k)) (fun k => x1 (ix2 p k)) (fun c k => x2 (ix2 c k)) (fun c k => x3 (ix2 c k)) (fun c => x4 (ix2 (0 : Fin 1) c)) (fun j c => x5 (ix2 j c)) (fun j => x6 (ix2 (0 : Fin 1) j)) (fun j k => x7 (ix2 j k)) (fun j => x8 (ix2 (0 : Fin 1) j)) q := by
  unfold out0_10
  rw [View.canon_unit_zero zeros2]
  simp only [View.ld_unit_zero (S := S128x2048) zeros2, View.ld_unit_zero (S := S256x2048) zeros2, View.ld_unit_zero (S := S1x256) zeros2,
    View.ld_unit_zero (S := S2048x2048) zeros2, View.ld_unit_zero (S := S1x2048) zeros2]
  rw [velocity_at, alpha_at, beta_at]
  exact congrArg (fun t => min w10 (max wm10 (Ideal.logistic (raw (fun k => x0 (ix2 p k)) (fun k => x1 (ix2 p k)) (fun c k => x2 (ix2 c k)) (fun c k => x3 (ix2 c k)) (fun c => x4 (ix2 (0 : Fin 1) c)) (fun j c => x5 (ix2 j c)) (fun j => x6 (ix2 (0 : Fin 1) j)) (chunk 0 q)) * x1 (ix2 p q)
      - min (softplus (raw (fun k => x0 (ix2 p k)) (fun k => x1 (ix2 p k)) (fun c k => x2 (ix2 c k)) (fun c k => x3 (ix2 c k)) (fun c => x4 (ix2 (0 : Fin 1) c)) (fun j c => x5 (ix2 j c)) (fun j => x6 (ix2 (0 : Fin 1) j)) (chunk 1 q))) w2 * (x0 (ix2 p q) - t)))) (mu_at (k0_pay1 x0) x7 x8 p q)

/-- The state's block at `(p, q)`. -/
theorem state_at' (x0 x1 : Vec Ideal S128x2048 .f32) (x2 x3 : Vec Ideal S256x2048 .bf16) (x4 : Vec Ideal S1x256 .f32) (x5 : Vec Ideal S6144x256 .bf16) (x6 : Vec Ideal S1x6144 .f32) (x7 : Vec Ideal S2048x2048 .bf16) (x8 : Vec Ideal S1x2048 .f32) (p : Fin 128) (q : Fin 2048) :
    out0_9 x0 x1 x2 x3 x4 x5 x6 x7 x8 (ix2 p q) = hNext (fun k => x0 (ix2 p k)) (fun k => x1 (ix2 p k)) (fun c k => x2 (ix2 c k)) (fun c k => x3 (ix2 c k)) (fun c => x4 (ix2 (0 : Fin 1) c)) (fun j c => x5 (ix2 j c)) (fun j => x6 (ix2 (0 : Fin 1) j)) (fun j k => x7 (ix2 j k)) (fun j => x8 (ix2 (0 : Fin 1) j)) q := by
  have hv := velocity_at' x0 x1 x2 x3 x4 x5 x6 x7 x8 p q
  unfold out0_10 at hv
  rw [View.canon_unit_zero zeros2] at hv
  unfold out0_9
  rw [View.canon_unit_zero zeros2]
  simp only [View.ld_unit_zero (S := S128x2048) zeros2, View.ld_unit_zero (S := S256x2048) zeros2, View.ld_unit_zero (S := S1x256) zeros2,
    View.ld_unit_zero (S := S2048x2048) zeros2, View.ld_unit_zero (S := S1x2048) zeros2] at hv ⊢
  rw [state_at, hv, bout_chunk2]
  have hg : (∑ c : Fin 256, k0_pay2 x0 x1 x2 x3 x4 (ix2 p c) * k0_pay3 (View.ld x5 r0_5) (ix2 q c))
      = ∑ c : Fin 256, ctrl (fun k => x0 (ix2 p k)) (fun k => x1 (ix2 p k)) (fun c k => x2 (ix2 c k)) (fun c k => x3 (ix2 c k)) (fun c => x4 (ix2 (0 : Fin 1) c)) c * x5 (ix2 (chunk 2 q) c) :=
    Finset.sum_congr rfl fun c _ => by
      rw [ctrl_at, show k0_pay3 (View.ld x5 r0_5) = View.ld x5 r0_5 from shapeCast_self _ _, wout_chunk2]
  rw [hg]
  rfl

/-! ## From a block's readers to the arrays' readers

If row `p` of the state's and the velocity's blocks is row `r` of the arrays, and the weights' blocks read as the weight
arrays do (the controller's input weight as its two column halves), then the three output blocks at `(p, q)` are the
three result functions of the arrays at `(r, q)`. -/

section Rows

variable (x0 x1 : Vec Ideal S128x2048 .f32) (x2 x3 : Vec Ideal S256x2048 .bf16) (x4 : Vec Ideal S1x256 .f32) (x5 : Vec Ideal S6144x256 .bf16) (x6 : Vec Ideal S1x6144 .f32) (x7 : Vec Ideal S2048x2048 .bf16) (x8 : Vec Ideal S1x2048 .f32)
  (X0 X1 : Mat 8192 2048) (X2 : Mat 256 4096) (X3 : Vect 256) (X4 : Mat 6144 256) (X5 : Vect 6144) (X6 : Mat 2048 2048) (X7 : Vect 2048)
  (r : Fin 8192) (p : Fin 128) (q : Fin 2048)

theorem target_rows (h0 : ∀ k, x0 (ix2 p k) = X0 (ix2 r k)) (h7 : ∀ j k, x7 (ix2 j k) = X6 (ix2 j k))
    (h8 : ∀ j, x8 (ix2 (0 : Fin 1) j) = X7 (ix1 j)) :
    out0_11 x0 x1 x2 x3 x4 x5 x6 x7 x8 (ix2 p q) = target X0 X6 X7 (ix2 r q) := by
  refine (target_at x0 x1 x2 x3 x4 x5 x6 x7 x8 p q).trans ?_
  rw [show (fun k => x0 (ix2 p k)) = (fun k => X0 (ix2 r k)) from funext h0,
    show (fun j k => x7 (ix2 j k)) = (fun j k => X6 (ix2 j k)) from funext fun j => funext fun k => h7 j k,
    show (fun j => x8 (ix2 (0 : Fin 1) j)) = (fun j => X7 (ix1 j)) from funext h8]
  rfl

theorem velocity_rows (h0 : ∀ k, x0 (ix2 p k) = X0 (ix2 r k)) (h1 : ∀ k, x1 (ix2 p k) = X1 (ix2 r k))
    (h2 : ∀ c k, x2 (ix2 c k) = X2 (ix2 c (lo k))) (h3 : ∀ c k, x3 (ix2 c k) = X2 (ix2 c (hi k)))
    (h4 : ∀ c, x4 (ix2 (0 : Fin 1) c) = X3 (ix1 c)) (h5 : ∀ j c, x5 (ix2 j c) = X4 (ix2 j c))
    (h6 : ∀ j, x6 (ix2 (0 : Fin 1) j) = X5 (ix1 j)) (h7 : ∀ j k, x7 (ix2 j k) = X6 (ix2 j k))
    (h8 : ∀ j, x8 (ix2 (0 : Fin 1) j) = X7 (ix1 j)) :
    out0_10 x0 x1 x2 x3 x4 x5 x6 x7 x8 (ix2 p q) = newVelocity X0 X1 X2 X3 X4 X5 X6 X7 (ix2 r q) := by
  refine (velocity_at' x0 x1 x2 x3 x4 x5 x6 x7 x8 p q).trans ?_
  rw [show (fun k => x0 (ix2 p k)) = (fun k => X0 (ix2 r k)) from funext h0,
    show (fun k => x1 (ix2 p k)) = (fun k => X1 (ix2 r k)) from funext h1,
    show (fun c k => x2 (ix2 c k)) = (fun c k => X2 (ix2 c (lo k))) from funext fun c => funext fun k => h2 c k,
    show (fun c k => x3 (ix2 c k)) = (fun c k => X2 (ix2 c (hi k))) from funext fun c => funext fun k => h3 c k,
    show (fun c => x4 (ix2 (0 : Fin 1) c)) = (fun c => X3 (ix1 c)) from funext h4,
    show (fun j c => x5 (ix2 j c)) = (fun j c => X4 (ix2 j c)) from funext fun j => funext fun c => h5 j c,
    show (fun j => x6 (ix2 (0 : Fin 1) j)) = (fun j => X5 (ix1 j)) from funext h6,
    show (fun j k => x7 (ix2 j k)) = (fun j k => X6 (ix2 j k)) from funext fun j => funext fun k => h7 j k,
    show (fun j => x8 (ix2 (0 : Fin 1) j)) = (fun j => X7 (ix1 j)) from funext h8]
  rfl

theorem state_rows (h0 : ∀ k, x0 (ix2 p k) = X0 (ix2 r k)) (h1 : ∀ k, x1 (ix2 p k) = X1 (ix2 r k))
    (h2 : ∀ c k, x2 (ix2 c k) = X2 (ix2 c (lo k))) (h3 : ∀ c k, x3 (ix2 c k) = X2 (ix2 c (hi k)))
    (h4 : ∀ c, x4 (ix2 (0 : Fin 1) c) = X3 (ix1 c)) (h5 : ∀ j c, x5 (ix2 j c) = X4 (ix2 j c))
    (h6 : ∀ j, x6 (ix2 (0 : Fin 1) j) = X5 (ix1 j)) (h7 : ∀ j k, x7 (ix2 j k) = X6 (ix2 j k))
    (h8 : ∀ j, x8 (ix2 (0 : Fin 1) j) = X7 (ix1 j)) :
    out0_9 x0 x1 x2 x3 x4 x5 x6 x7 x8 (ix2 p q) = newState X0 X1 X2 X3 X4 X5 X6 X7 (ix2 r q) := by
  refine (state_at' x0 x1 x2 x3 x4 x5 x6 x7 x8 p q).trans ?_
  rw [show (fun k => x0 (ix2 p k)) = (fun k => X0 (ix2 r k)) from funext h0,
    show (fun k => x1 (ix2 p k)) = (fun k => X1 (ix2 r k)) from funext h1,
    show (fun c k => x2 (ix2 c k)) = (fun c k => X2 (ix2 c (lo k))) from funext fun c => funext fun k => h2 c k,
    show (fun c k => x3 (ix2 c k)) = (fun c k => X2 (ix2 c (hi k))) from funext fun c => funext fun k => h3 c k,
    show (fun c => x4 (ix2 (0 : Fin 1) c)) = (fun c => X3 (ix1 c)) from funext h4,
    show (fun j c => x5 (ix2 j c)) = (fun j c => X4 (ix2 j c)) from funext fun j => funext fun c => h5 j c,
    show (fun j => x6 (ix2 (0 : Fin 1) j)) = (fun j => X5 (ix1 j)) from funext h6,
    show (fun j k => x7 (ix2 j k)) = (fun j k => X6 (ix2 j k)) from funext fun j => funext fun k => h7 j k,
    show (fun j => x8 (ix2 (0 : Fin 1) j)) = (fun j => X7 (ix1 j)) from funext h8]
  rfl

end Rows

end Cert.KernelIdeal.Block

end
-- ==== Proof.KernelArrays.lean ====
/-
  The kernel's three result arrays after its run, as the result functions of Update.lean of the eight argument arrays.

  The grid has 64 points; point `t` works on rows `128 t … 128 t + 127` of the state and of the velocity and writes the
  same rows of the three results; every weight is one whole block, the same at every point. Before the region the host
  narrows the weights (the identity on the extended reals), cuts the controller's input weight into its two column halves
  and gives the three bias vectors a leading unit axis. So block `t` of each result is the result function restricted to
  those rows, and the 64 blocks cover the array.
-/
import proofs.«123418_j25323127177574_2_alg».proof.Proof.Gen.KernelIdeal.Value
import proofs.«123418_j25323127177574_2_alg».proof.Proof.KernelBlock
import Idealize.ShloMosaic.Lib.Pipeline.Value
import Idealize.ShloMosaic.Lib.ValueLayout
import Idealize.ShloMosaic.Lib.StableHlo.Run

noncomputable section

namespace Cert.KernelIdeal.Arrays

open Cert.KernelIdeal Cert.KernelIdeal.Gen Cert.KernelIdeal.Block Idealize.ShloMosaic Idealize.ShloMosaic.TcCoe Idealize.SL.Sem
open Idealize.ShloMosaic.ValueIdx Cert.Update
open Idealize.ShloMosaic.Pipeline (Dat)

variable (m : (ℓ : Loc nD τ sig) → Buf (Elt Ideal) ℓ) (ρ : Dev nD → PrngReg)

/-! ## The index maps, decided over the 64 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Row `p` of point `t`'s block is row `128 t + p` of the array. -/
abbrev row (t : Fin cfg0.N) (p : Fin 128) : Fin 8192 :=
  ⟨t.val * 128 + p.val, by have := t.isLt; have := p.isLt; have hN : cfg0.N = 64 := N_0; omega⟩

/-! ## The weights' arrays when the region starts -/

theorem V_v1 (c : Dev nD) : (V m c main_v1 : S256x2048.Idx → EReal)
    = truncf (F := Ideal) .bf16 (extractStridedSlice S256x2048 ![0, 0] (m ((c : Thread nD τ).loc main_arg2)) slices_S256x4096_S256x2048_0_0) bitsLt_bf16_f32 := by
  dsimp only [V, hostOps0]; after_results

theorem V_v3 (c : Dev nD) : (V m c main_v3 : S256x2048.Idx → EReal)
    = truncf (F := Ideal) .bf16 (extractStridedSlice S256x2048 ![0, 2048] (m ((c : Thread nD τ).loc main_arg2)) slices_S256x4096_S256x2048_0_2048) bitsLt_bf16_f32 := by
  dsimp only [V, hostOps0]; after_results

theorem V_v4 (c : Dev nD) : (V m c main_v4 : S6144x256.Idx → EReal) = truncf (F := Ideal) .bf16 (m ((c : Thread nD τ).loc main_arg4)) bitsLt_bf16_f32 := by
  dsimp only [V, hostOps0]; after_results

theorem V_v5 (c : Dev nD) : (V m c main_v5 : S2048x2048.Idx → EReal) = truncf (F := Ideal) .bf16 (m ((c : Thread nD τ).loc main_arg6)) bitsLt_bf16_f32 := by
  dsimp only [V, hostOps0]; after_results

theorem V_v6 (c : Dev nD) : (V m c main_v6 : S1x256.Idx → EReal) = shapeCast S1x256 (m ((c : Thread nD τ).loc main_arg3)) shapeCasts_S256_S1x256 := by
  dsimp only [V, hostOps0]; after_results; rfl

theorem V_v7 (c : Dev nD) : (V m c main_v7 : S1x6144.Idx → EReal) = shapeCast S1x6144 (m ((c : Thread nD τ).loc main_arg5)) shapeCasts_S6144_S1x6144 := by
  dsimp only [V, hostOps0]; after_results; rfl

theorem V_v8 (c : Dev nD) : (V m c main_v8 : S1x2048.Idx → EReal) = shapeCast S1x2048 (m ((c : Thread nD τ).loc main_arg7)) shapeCasts_S2048_S1x2048 := by
  dsimp only [V, hostOps0]; after_results; rfl

/-! ## Each window's block read off the argument arrays -/

/-- Row `p` of the state's block at point `t` is row `128 t + p` of the state. -/
theorem blk0_at (c : Dev nD) (t : Fin cfg0.N) (p : Fin 128) (k : Fin 2048) :
    (iblk m c 0 t : Vec Ideal S128x2048 .f32) (ix2 p k) = (m ((c : Thread nD τ).loc main_arg0)) (ix2 (row t p) k) := by
  obtain ⟨e0, e1⟩ := idx0 t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = t.val * 128 + p.val; rw [e0]; omega
  | ⟨1, _⟩ => show win0_0.index t (1 : Fin 2) * 2048 + 1 * k.val = k.val; rw [e1]; omega

/-- The same for the velocity. -/
theorem blk1_at (c : Dev nD) (t : Fin cfg0.N) (p : Fin 128) (k : Fin 2048) :
    (iblk m c 1 t : Vec Ideal S128x2048 .f32) (ix2 p k) = (m ((c : Thread nD τ).loc main_arg1)) (ix2 (row t p) k) := by
  obtain ⟨e0, e1⟩ := idx1 t
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = t.val * 128 + p.val; rw [e0]; omega
  | ⟨1, _⟩ => show win0_1.index t (1 : Fin 2) * 2048 + 1 * k.val = k.val; rw [e1]; omega

/-- The first half of the controller's input weight: columns 0 … 2047. -/
theorem blk2_at (c : Dev nD) (t : Fin cfg0.N) (cc : Fin 256) (k : Fin 2048) :
    (iblk m c 2 t : Vec Ideal S256x2048 .bf16) (ix2 cc k) = (m ((c : Thread nD τ).loc main_arg2)) (ix2 cc (lo k)) := by
  obtain ⟨e0, e1⟩ := idx2 t
  have ei : ((cfg0.win 2).blk t).view.emb (ix2 cc k) = ix2 cc k := funext fun ax => Fin.ext (by
    match ax with
    | ⟨0, _⟩ => show win0_2.index t (0 : Fin 2) * 256 + 1 * cc.val = cc.val; omega
    | ⟨1, _⟩ => show win0_2.index t (1 : Fin 2) * 2048 + 1 * k.val = k.val; omega)
  show V m c main_v1 (((cfg0.win 2).blk t).view.emb (ix2 cc k)) = _
  rw [ei, V_v1]
  show extractStridedSlice S256x2048 ![0, 0] (m ((c : Thread nD τ).loc main_arg2)) slices_S256x4096_S256x2048_0_0 (ix2 cc k) = _
  exact slice2_axis1_apply 0 (m ((c : Thread nD τ).loc main_arg2)) slices_S256x4096_S256x2048_0_0 cc k (lo k) (Nat.zero_add _).symm

/-- The second half: columns 2048 … 4095. -/
theorem blk3_at (c : Dev nD) (t : Fin cfg0.N) (cc : Fin 256) (k : Fin 2048) :
    (iblk m c 3 t : Vec Ideal S256x2048 .bf16) (ix2 cc k) = (m ((c : Thread nD τ).loc main_arg2)) (ix2 cc (hi k)) := by
  obtain ⟨e0, e1⟩ := idx3 t
  have ei : ((cfg0.win 3).blk t).view.emb (ix2 cc k) = ix2 cc k := funext fun ax => Fin.ext (by
    match ax with
    | ⟨0, _⟩ => show win0_3.index t (0 : Fin 2) * 256 + 1 * cc.val = cc.val; omega
    | ⟨1, _⟩ => show win0_3.index t (1 : Fin 2) * 2048 + 1 * k.val = k.val; omega)
  show V m c main_v3 (((cfg0.win 3).blk t).view.emb (ix2 cc k)) = _
  rw [ei, V_v3]
  show extractStridedSlice S256x2048 ![0, 2048] (m ((c : Thread nD τ).loc main_arg2)) slices_S256x4096_S256x2048_0_2048 (ix2 cc k) = _
  exact slice2_axis1_apply 2048 (m ((c : Thread nD τ).loc main_arg2)) slices_S256x4096_S256x2048_0_2048 cc k (hi k) rfl

/-- The controller's input bias, given a leading unit axis. -/
theorem blk4_at (c : Dev nD) (t : Fin cfg0.N) (cc : Fin 256) :
    (iblk m c 4 t : Vec Ideal S1x256 .f32) (ix2 (0 : Fin 1) cc) = (m ((c : Thread nD τ).loc main_arg3)) (ix1 cc) := by
  obtain ⟨e0, e1⟩ := idx4 t
  have ei : ((cfg0.win 4).blk t).view.emb (ix2 (0 : Fin 1) cc) = ix2 (0 : Fin 1) cc := funext fun ax => Fin.ext (by
    match ax with
    | ⟨0, _⟩ => show win0_4.index t (0 : Fin 2) * 1 + 1 * 0 = 0; omega
    | ⟨1, _⟩ => show win0_4.index t (1 : Fin 2) * 256 + 1 * cc.val = cc.val; omega)
  show V m c main_v6 (((cfg0.win 4).blk t).view.emb (ix2 (0 : Fin 1) cc)) = _
  rw [ei, V_v6]
  exact shapeCast_a_1a_apply _ _ (0 : Fin 1) cc

/-- The controller's output weight. -/
theorem blk5_at (c : Dev nD) (t : Fin cfg0.N) (j : Fin 6144) (cc : Fin 256) :
    (iblk m c 5 t : Vec Ideal S6144x256 .bf16) (ix2 j cc) = (m ((c : Thread nD τ).loc main_arg4)) (ix2 j cc) := by
  obtain ⟨e0, e1⟩ := idx5 t
  have ei : ((cfg0.win 5).blk t).view.emb (ix2 j cc) = ix2 j cc := funext fun ax => Fin.ext (by
    match ax with
    | ⟨0, _⟩ => show win0_5.index t (0 : Fin 2) * 6144 + 1 * j.val = j.val; omega
    | ⟨1, _⟩ => show win0_5.index t (1 : Fin 2) * 256 + 1 * cc.val = cc.val; omega)
  show V m c main_v4 (((cfg0.win 5).blk t).view.emb (ix2 j cc)) = _
  rw [ei, V_v4]
  rfl

/-- The controller's output bias. -/
theorem blk6_at (c : Dev nD) (t : Fin cfg0.N) (j : Fin 6144) :
    (iblk m c 6 t : Vec Ideal S1x6144 .f32) (ix2 (0 : Fin 1) j) = (m ((c : Thread nD τ).loc main_arg5)) (ix1 j) := by
  obtain ⟨e0, e1⟩ := idx6 t
  have ei : ((cfg0.win 6).blk t).view.emb (ix2 (0 : Fin 1) j) = ix2 (0 : Fin 1) j := funext fun ax => Fin.ext (by
    match ax with
    | ⟨0, _⟩ => show win0_6.index t (0 : Fin 2) * 1 + 1 * 0 = 0; omega
    | ⟨1, _⟩ => show win0_6.index t (1 : Fin 2) * 6144 + 1 * j.val = j.val; omega)
  show V m c main_v7 (((cfg0.win 6).blk t).view.emb (ix2 (0 : Fin 1) j)) = _
  rw [ei, V_v7]
  exact shapeCast_a_1a_apply _ _ (0 : Fin 1) j

/-- The projection's weight. -/
theorem blk7_at (c : Dev nD) (t : Fin cfg0.N) (j : Fin 2048) (k : Fin 2048) :
    (iblk m c 7 t : Vec Ideal S2048x2048 .bf16) (ix2 j k) = (m ((c : Thread nD τ).loc main_arg6)) (ix2 j k) := by
  obtain ⟨e0, e1⟩ := idx7 t
  have ei : ((cfg0.win 7).blk t).view.emb (ix2 j k) = ix2 j k := funext fun ax => Fin.ext (by
    match ax with
    | ⟨0, _⟩ => show win0_7.index t (0 : Fin 2) * 2048 + 1 * j.val = j.val; omega
    | ⟨1, _⟩ => show win0_7.index t (1 : Fin 2) * 2048 + 1 * k.val = k.val; omega)
  show V m c main_v5 (((cfg0.win 7).blk t).view.emb (ix2 j k)) = _
  rw [ei, V_v5]
  rfl

/-- The projection's offset. -/
theorem blk8_at (c : Dev nD) (t : Fin cfg0.N) (j : Fin 2048) :
    (iblk m c 8 t : Vec Ideal S1x2048 .f32) (ix2 (0 : Fin 1) j) = (m ((c : Thread nD τ).loc main_arg7)) (ix1 j) := by
  obtain ⟨e0, e1⟩ := idx8 t
  have ei : ((cfg0.win 8).blk t).view.emb (ix2 (0 : Fin 1) j) = ix2 (0 : Fin 1) j := funext fun ax => Fin.ext (by
    match ax with
    | ⟨0, _⟩ => show win0_8.index t (0 : Fin 2) * 1 + 1 * 0 = 0; omega
    | ⟨1, _⟩ => show win0_8.index t (1 : Fin 2) * 2048 + 1 * j.val = j.val; omega)
  show V m c main_v8 (((cfg0.win 8).blk t).view.emb (ix2 (0 : Fin 1) j)) = _
  rw [ei, V_v8]
  exact shapeCast_a_1a_apply _ _ (0 : Fin 1) j

/-! ## What each point writes back -/

/-- Point `t` writes block `t` of the new state. -/
theorem flushed9_eq (c : Dev nD) (t : Fin cfg0.N) :
    (dats m 0 c).flushed 9 t = ((cfg0.win 9).blk t).view.read (Elt Ideal) (newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9]
  refine funext fun (y : S128x2048.Idx) => ?_
  obtain ⟨p, q, rfl⟩ : ∃ (p : Fin 128) (q : Fin 2048), y = ix2 p q := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p q) = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb (ix2 p q))
  refine (state_rows (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t p) p q (blk0_at m c t p) (blk1_at m c t p) (blk2_at m c t) (blk3_at m c t) (blk4_at m c t) (blk5_at m c t) (blk6_at m c t) (blk7_at m c t) (blk8_at m c t)).trans ?_
  refine congrArg _ (funext fun a => Fin.ext ?_)
  obtain ⟨e0, e1⟩ := idx9 t
  match a with
  | ⟨0, _⟩ => show t.val * 128 + p.val = win0_9.index t (0 : Fin 2) * 128 + 1 * p.val; rw [e0]; omega
  | ⟨1, _⟩ => show q.val = win0_9.index t (1 : Fin 2) * 2048 + 1 * q.val; rw [e1]; omega

/-- Point `t` writes block `t` of the new velocity. -/
theorem flushed10_eq (c : Dev nD) (t : Fin cfg0.N) :
    (dats m 0 c).flushed 10 t = ((cfg0.win 10).blk t).view.read (Elt Ideal) (newVelocity (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed10]
  refine funext fun (y : S128x2048.Idx) => ?_
  obtain ⟨p, q, rfl⟩ : ∃ (p : Fin 128) (q : Fin 2048), y = ix2 p q := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (ix2 p q) = newVelocity (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb (ix2 p q))
  refine (velocity_rows (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t p) p q (blk0_at m c t p) (blk1_at m c t p) (blk2_at m c t) (blk3_at m c t) (blk4_at m c t) (blk5_at m c t) (blk6_at m c t) (blk7_at m c t) (blk8_at m c t)).trans ?_
  refine congrArg _ (funext fun a => Fin.ext ?_)
  obtain ⟨e0, e1⟩ := idx10 t
  match a with
  | ⟨0, _⟩ => show t.val * 128 + p.val = win0_10.index t (0 : Fin 2) * 128 + 1 * p.val; rw [e0]; omega
  | ⟨1, _⟩ => show q.val = win0_10.index t (1 : Fin 2) * 2048 + 1 * q.val; rw [e1]; omega

/-- Point `t` writes block `t` of the contextual target. -/
theorem flushed11_eq (c : Dev nD) (t : Fin cfg0.N) :
    (dats m 0 c).flushed 11 t = ((cfg0.win 11).blk t).view.read (Elt Ideal) (target (m ((c : Thread nD τ).loc main_arg0)) (m ((c : Thread nD τ).loc main_arg6)) (m ((c : Thread nD τ).loc main_arg7))) := by
  rw [Value.flushed11]
  refine funext fun (y : S128x2048.Idx) => ?_
  obtain ⟨p, q, rfl⟩ : ∃ (p : Fin 128) (q : Fin 2048), y = ix2 p q := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (ix2 p q) = target (m ((c : Thread nD τ).loc main_arg0)) (m ((c : Thread nD τ).loc main_arg6)) (m ((c : Thread nD τ).loc main_arg7)) (((cfg0.win 11).blk t).view.emb (ix2 p q))
  refine (target_rows (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg6)) (m ((c : Thread nD τ).loc main_arg7)) (row t p) p q (blk0_at m c t p) (blk7_at m c t) (blk8_at m c t)).trans ?_
  refine congrArg _ (funext fun a => Fin.ext ?_)
  obtain ⟨e0, e1⟩ := idx11 t
  match a with
  | ⟨0, _⟩ => show t.val * 128 + p.val = win0_11.index t (0 : Fin 2) * 128 + 1 * p.val; rw [e0]; omega
  | ⟨1, _⟩ => show q.val = win0_11.index t (1 : Fin 2) * 2048 + 1 * q.val; rw [e1]; omega

/-! ## The 64 blocks cover each result -/

/-- An index of the array is in point `t`'s block iff each coordinate is in the block's range on its axis. -/
theorem mem_blk9 (t : Fin cfg0.N) (i : S8192x2048.Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v9_0).slice (win0_9.rect t)).set ↔ _
  rw [View.set_slice_whole, Rect.mem_set_unit]
  exact Iff.rfl

/-- Every row of the array is in some point's block: row `r` in the block of point `r / 128`. -/
theorem cover9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨e0, e1⟩ := idx9 t
  refine ⟨t, flush0_9 t, ?_⟩
  rw [mem_blk9]
  intro a
  match a with
  | ⟨0, _⟩ => show win0_9.index t (0 : Fin 2) * 128 ≤ (i 0).val ∧ (i 0).val < win0_9.index t (0 : Fin 2) * 128 + 128; rw [e0, ht]; omega
  | ⟨1, _⟩ => show win0_9.index t (1 : Fin 2) * 2048 ≤ (i 1).val ∧ (i 1).val < win0_9.index t (1 : Fin 2) * 2048 + 2048; rw [e1]; omega

/-- An index of the array is in point `t`'s block iff each coordinate is in the block's range on its axis. -/
theorem mem_blk10 (t : Fin cfg0.N) (i : S8192x2048.Idx) :
    i ∈ ((cfg0.win 10).blk t).view.set ↔ ∀ a : Fin 2, win0_10.index t a * S128x2048.size a ≤ (i a).val ∧ (i a).val < win0_10.index t a * S128x2048.size a + S128x2048.size a := by
  show i ∈ ((View.whole main_v9_1).slice (win0_10.rect t)).set ↔ _
  rw [View.set_slice_whole, Rect.mem_set_unit]
  exact Iff.rfl

/-- Every row of the array is in some point's block: row `r` in the block of point `r / 128`. -/
theorem cover10 (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨e0, e1⟩ := idx10 t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; rw [e0, ht]; omega
  | ⟨1, _⟩ => show win0_10.index t (1 : Fin 2) * 2048 ≤ (i 1).val ∧ (i 1).val < win0_10.index t (1 : Fin 2) * 2048 + 2048; rw [e1]; omega

/-- An index of the array is in point `t`'s block iff each coordinate is in the block's range on its axis. -/
theorem mem_blk11 (t : Fin cfg0.N) (i : S8192x2048.Idx) :
    i ∈ ((cfg0.win 11).blk t).view.set ↔ ∀ a : Fin 2, win0_11.index t a * S128x2048.size a ≤ (i a).val ∧ (i a).val < win0_11.index t a * S128x2048.size a + S128x2048.size a := by
  show i ∈ ((View.whole main_v9_2).slice (win0_11.rect t)).set ↔ _
  rw [View.set_slice_whole, Rect.mem_set_unit]
  exact Iff.rfl

/-- Every row of the array is in some point's block: row `r` in the block of point `r / 128`. -/
theorem cover11 (i : S8192x2048.Idx) : ∃ t : Fin cfg0.N, (cfg0.win 11).flush t = true ∧ i ∈ ((cfg0.win 11).blk t).view.set := by
  have hi0 : (i 0).val < 8192 := (i 0).isLt
  have hi1 : (i 1).val < 2048 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨e0, e1⟩ := idx11 t
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; rw [e0, ht]; omega
  | ⟨1, _⟩ => show win0_11.index t (1 : Fin 2) * 2048 ≤ (i 1).val ∧ (i 1).val < win0_11.index t (1 : Fin 2) * 2048 + 2048; rw [e1]; omega

/-! ## The arrays after the run, and the run -/

theorem final9 (c : Dev nD) : (dats m 0 c).arrAt 9 cfg0.N = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 (newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed9_eq m c t) cover9

theorem final10 (c : Dev nD) : (dats m 0 c).arrAt 10 cfg0.N = newVelocity (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 (newVelocity (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed10_eq m c t) cover10

theorem final11 (c : Dev nD) : (dats m 0 c).arrAt 11 cfg0.N = target (m ((c : Thread nD τ).loc main_arg0)) (m ((c : Thread nD τ).loc main_arg6)) (m ((c : Thread nD τ).loc main_arg7)) :=
  (dats m 0 c).arrAt_eq_of_cover 11 (target (m ((c : Thread nD τ).loc main_arg0)) (m ((c : Thread nD τ).loc main_arg6)) (m ((c : Thread nD τ).loc main_arg7))) (fun t _ => flushed11_eq m c t) cover11

/-- Every weakly fair execution of the kernel's program terminates with its three results at the new state, the new
    velocity and the contextual target of the argument arrays, and the arguments unchanged. -/
theorem run : θ_run defs (onTc (τ := τ) (main (F := Ideal))) ⟨m, fun _ => 0, ρ⟩ fun r => ∀ c : Dev nD,
      r.2.mem ((c : Thread nD τ).loc main_v9_0) = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v9_1) = newVelocity (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v9_2) = target (m ((c : Thread nD τ).loc main_arg0)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2.1.trans (final10 m c),
      (h c).2.2.1.trans (final11 m c), (h c).2.2.2⟩) (Value.run_blocks m ρ)

end Cert.KernelIdeal.Arrays

end
-- ==== Proof.ReferenceRow.lean ====
/-
  The reference program read one output entry at a time.

  Every stage of the reference is a whole array; at the exact instance each stage at an index `(r, j)` is a formula in
  the operands at an index. Chaining these readings from the arguments upward gives, at every index, the formulas of
  the state update: the controller's hidden value, its 6144 outputs (three chunks of 2048), the contextual target,
  the new velocity and the new state.
-/
import proofs.«123418_j25323127177574_2_alg».proof.Proof.Gen.ReferenceIdeal.Read
import proofs.«123418_j25323127177574_2_alg».proof.Proof.Update
import Idealize.ShloMosaic.Lib.ValueLayout
import Idealize.ShloMosaic.Lib.Pipeline.Value
import Idealize.ShloMosaic.Lib.ValueIdx

noncomputable section

namespace Cert.ReferenceIdeal.Row

open Cert.ReferenceIdeal Cert.ReferenceIdeal.Read Cert.Update Idealize.ShloMosaic Idealize.ShloMosaic.ValueIdx

variable (x0 x1 : (⟨S8192x2048, .f32⟩ : BufTy).Contents (Elt Ideal)) (x2 : (⟨S256x4096, .f32⟩ : BufTy).Contents (Elt Ideal))
  (x3 : (⟨S256, .f32⟩ : BufTy).Contents (Elt Ideal)) (x4 : (⟨S6144x256, .f32⟩ : BufTy).Contents (Elt Ideal))
  (x5 : (⟨S6144, .f32⟩ : BufTy).Contents (Elt Ideal)) (x6 : (⟨S2048x2048, .f32⟩ : BufTy).Contents (Elt Ideal))
  (x7 : (⟨S2048, .f32⟩ : BufTy).Contents (Elt Ideal))

/-! ## The controller's hidden layer -/

/-- The joined array `[h | v]` at a column of the first half is the state at that column. -/
theorem joined_lo (r : Fin 8192) (c : Fin 256) (k : Fin 2048) :
    val_main_v0 (F := Ideal) x0 x1 (lidx_main_v2 (ix2 r c) (lo k)) = x0 (ix2 r k) := by
  unfold val_main_v0
  exact concatenate_pair_apply_left (t := S8192x4096) (s₁ := S8192x2048) (s₂ := S8192x2048) (1 : Fin 2) x0 x1
    Gen.concatenates_S8192x2048_S8192x2048_S8192x4096_d1 (lidx_main_v2 (ix2 r c) (lo k)) rfl (ix2 r k)
    (fun b => by
      match b with
      | ⟨0, _⟩ => rfl
      | ⟨1, _⟩ => rfl)

/-- The joined array `[h | v]` at a column of the second half is the velocity at that column less 2048. -/
theorem joined_hi (r : Fin 8192) (c : Fin 256) (k : Fin 2048) :
    val_main_v0 (F := Ideal) x0 x1 (lidx_main_v2 (ix2 r c) (hi k)) = x1 (ix2 r k) := by
  unfold val_main_v0
  exact concatenate_pair_apply_right (t := S8192x4096) (s₁ := S8192x2048) (s₂ := S8192x2048) (1 : Fin 2) x0 x1
    Gen.concatenates_S8192x2048_S8192x2048_S8192x4096_d1 (lidx_main_v2 (ix2 r c) (hi k)) rfl rfl (ix2 r k)
    (fun b hb => by
      match b with
      | ⟨0, _⟩ => rfl
      | ⟨1, _⟩ => exact absurd rfl hb)
    (by show k.val + 2048 = 2048 + k.val; omega)

/-- The transposed input weights at `(k, c)` are the weights at `(c, k)`. -/
theorem win_at (r : Fin 8192) (c : Fin 256) (k : Fin 4096) :
    val_main_v1 (F := Ideal) x2 (ridx_main_v2 (ix2 r c) k) = x2 (ix2 c k) :=
  (val_main_v1_apply x2 _).trans (congrArg x2 (funext fun a => by
    match a with
    | ⟨0, _⟩ => rfl
    | ⟨1, _⟩ => rfl))

/-- The first product at `(r, c)`: the sum over the 4096 joined columns is the state's half plus the velocity's half. -/
theorem v2_at (r : Fin 8192) (c : Fin 256) :
    val_main_v2 (F := Ideal) x0 x1 x2 (ix2 r c)
      = ∑ k : Fin 2048, x0 (ix2 r k) * x2 (ix2 c (lo k)) + ∑ k : Fin 2048, x1 (ix2 r k) * x2 (ix2 c (hi k)) := by
  refine (val_main_v2_apply x0 x1 x2 (ix2 r c)).trans ?_
  refine (sum_halves _).trans ?_
  refine congrArg₂ (· + ·) (Finset.sum_congr rfl fun k _ => ?_) (Finset.sum_congr rfl fun k _ => ?_)
  · exact congrArg₂ (· * ·) (joined_lo x0 x1 r c k) (win_at x2 r c (lo k))
  · exact congrArg₂ (· * ·) (joined_hi x0 x1 r c k) (win_at x2 r c (hi k))

/-- The input bias, broadcast over the rows, at `(r, c)`. -/
theorem v4_at (r : Fin 8192) (c : Fin 256) : val_main_v4 (F := Ideal) x3 (ix2 r c) = x3 (ix1 c) :=
  (val_main_v4_apply x3 _).trans ((val_main_v3_apply x3 _).trans (congrArg x3 (funext fun a => by
    match a with
    | ⟨0, _⟩ => rfl)))

/-- The hidden layer before its activation, at `(r, c)`. -/
theorem v5_at (r : Fin 8192) (c : Fin 256) :
    val_main_v5 (F := Ideal) x0 x1 x2 x3 (ix2 r c)
      = (∑ k : Fin 2048, x0 (ix2 r k) * x2 (ix2 c (lo k)) + ∑ k : Fin 2048, x1 (ix2 r k) * x2 (ix2 c (hi k))) + x3 (ix1 c) :=
  (val_main_v5_apply x0 x1 x2 x3 _).trans (congrArg₂ (· + ·) (v2_at x0 x1 x2 r c) (v4_at x3 r c))

/-- The hidden layer at `(r, c)`: the activation `x · σ(x)`, its `σ` spelled `1 / (1 + exp (−x))`, of the value before it. -/
theorem v6_at (r : Fin 8192) (c : Fin 256) :
    val_main_v6 (F := Ideal) x0 x1 x2 x3 (ix2 r c) = silu (val_main_v5 (F := Ideal) x0 x1 x2 x3 (ix2 r c)) := by
  have h4 : val_main_call0_v4 (F := Ideal) (ix2 r c) = w1 := (val_main_call0_v4_apply _).trans rfl
  have h2 : val_main_call0_v2 (F := Ideal) (ix2 r c) = w1 := (val_main_call0_v2_apply _).trans rfl
  show val_main_v5 (F := Ideal) x0 x1 x2 x3 (ix2 r c)
      * Ideal.div (val_main_call0_v4 (F := Ideal) (ix2 r c))
          (val_main_call0_v2 (F := Ideal) (ix2 r c) + Ideal.exp (-(val_main_v5 (F := Ideal) x0 x1 x2 x3 (ix2 r c)))) = _
  rw [h4, h2, logistic_spelled]
  rfl

/-- Row `r` of the hidden layer, as the formula over readers. -/
abbrev ctrlRow (r : Fin 8192) : Fin 256 → EReal :=
  ctrl (fun k => x0 (ix2 r k)) (fun k => x1 (ix2 r k)) (fun c k => x2 (ix2 c (lo k))) (fun c k => x2 (ix2 c (hi k)))
    (fun c => x3 (ix1 c))

/-- The hidden layer at `(r, c)` is the formula. -/
theorem ctrl_at (r : Fin 8192) (c : Fin 256) :
    val_main_v6 (F := Ideal) x0 x1 x2 x3 (ix2 r c) = ctrlRow x0 x1 x2 x3 r c :=
  (v6_at x0 x1 x2 x3 r c).trans (congrArg silu (v5_at x0 x1 x2 x3 r c))

/-! ## The controller's output and its three chunks -/

/-- Row `r` of the controller's output, as the formula over readers. -/
abbrev rawRow (r : Fin 8192) : Fin 6144 → EReal :=
  raw (fun k => x0 (ix2 r k)) (fun k => x1 (ix2 r k)) (fun c k => x2 (ix2 c (lo k))) (fun c k => x2 (ix2 c (hi k)))
    (fun c => x3 (ix1 c)) (fun j c => x4 (ix2 j c)) (fun j => x5 (ix1 j))

/-- The output bias, broadcast over the rows, at `(r, j')`. -/
theorem v10_at (r : Fin 8192) (j' : Fin 6144) : val_main_v10 (F := Ideal) x5 (ix2 r j') = x5 (ix1 j') :=
  (val_main_v10_apply x5 _).trans ((val_main_v9_apply x5 _).trans (congrArg x5 (funext fun a => by
    match a with
    | ⟨0, _⟩ => rfl)))

/-- The second product at `(r, j')`: the hidden row against row `j'` of the output weights. -/
theorem v8_at (r : Fin 8192) (j' : Fin 6144) :
    val_main_v8 (F := Ideal) x0 x1 x2 x3 x4 (ix2 r j') = ∑ c : Fin 256, ctrlRow x0 x1 x2 x3 r c * x4 (ix2 j' c) := by
  refine (val_main_v8_apply x0 x1 x2 x3 x4 (ix2 r j')).trans (Finset.sum_congr rfl fun c _ => ?_)
  refine congrArg₂ (· * ·) ?_ ?_
  · refine (congrArg (val_main_v6 (F := Ideal) x0 x1 x2 x3) (funext fun a => ?_)).trans (ctrl_at x0 x1 x2 x3 r c)
    match a with
    | ⟨0, _⟩ => rfl
    | ⟨1, _⟩ => rfl
  · refine (val_main_v7_apply x4 _).trans (congrArg x4 (funext fun a => ?_))
    match a with
    | ⟨0, _⟩ => rfl
    | ⟨1, _⟩ => rfl

/-- The controller's output at `(r, j')` is the formula. -/
theorem v11_at (r : Fin 8192) (j' : Fin 6144) :
    val_main_v11 (F := Ideal) x0 x1 x2 x3 x4 x5 (ix2 r j') = rawRow x0 x1 x2 x3 x4 x5 r j' :=
  (val_main_v11_apply x0 x1 x2 x3 x4 x5 _).trans (congrArg₂ (· + ·) (v8_at x0 x1 x2 x3 x4 r j') (v10_at x5 r j'))

/-- The first chunk (columns 0 to 2047) at `(r, j)`. -/
theorem v12_at (r : Fin 8192) (j : Fin 2048) :
    val_main_v12 (F := Ideal) x0 x1 x2 x3 x4 x5 (ix2 r j) = rawRow x0 x1 x2 x3 x4 x5 r (chunk 0 j) := by
  refine (val_main_v12_apply x0 x1 x2 x3 x4 x5 _).trans ?_
  refine (congrArg (val_main_v11 (F := Ideal) x0 x1 x2 x3 x4 x5) (funext fun a => ?_)).trans (v11_at x0 x1 x2 x3 x4 x5 r (chunk 0 j))
  match a with
  | ⟨0, _⟩ => rfl
  | ⟨1, _⟩ => exact Fin.ext (by show j.val = 0 * 2048 + j.val; omega)

/-- The second chunk (columns 2048 to 4095) at `(r, j)`. -/
theorem v13_at (r : Fin 8192) (j : Fin 2048) :
    val_main_v13 (F := Ideal) x0 x1 x2 x3 x4 x5 (ix2 r j) = rawRow x0 x1 x2 x3 x4 x5 r (chunk 1 j) := by
  refine (val_main_v13_apply x0 x1 x2 x3 x4 x5 _).trans ?_
  refine (congrArg (val_main_v11 (F := Ideal) x0 x1 x2 x3 x4 x5) (funext fun a => ?_)).trans (v11_at x0 x1 x2 x3 x4 x5 r (chunk 1 j))
  match a with
  | ⟨0, _⟩ => rfl
  | ⟨1, _⟩ => exact Fin.ext (by show 2048 + j.val = 1 * 2048 + j.val; omega)

/-- The third chunk (columns 4096 to 6143) at `(r, j)`. -/
theorem v14_at (r : Fin 8192) (j : Fin 2048) :
    val_main_v14 (F := Ideal) x0 x1 x2 x3 x4 x5 (ix2 r j) = rawRow x0 x1 x2 x3 x4 x5 r (chunk 2 j) := by
  refine (val_main_v14_apply x0 x1 x2 x3 x4 x5 _).trans ?_
  refine (congrArg (val_main_v11 (F := Ideal) x0 x1 x2 x3 x4 x5) (funext fun a => ?_)).trans (v11_at x0 x1 x2 x3 x4 x5 r (chunk 2 j))
  match a with
  | ⟨0, _⟩ => rfl
  | ⟨1, _⟩ => exact Fin.ext (by show 4096 + j.val = 2 * 2048 + j.val; omega)

/-! ## The contextual target -/

/-- The contextual target at `(r, j)`: the offset plus the state's row against row `j` of the projection. -/
theorem v34_at (r : Fin 8192) (j : Fin 2048) :
    val_main_v34 (F := Ideal) x0 x6 x7 (ix2 r j)
      = muCtx (fun k => x0 (ix2 r k)) (fun j k => x6 (ix2 j k)) (fun j => x7 (ix1 j)) j := by
  refine (val_main_v34_apply x0 x6 x7 _).trans (congrArg₂ (· + ·) ?_ ?_)
  · refine (val_main_v33_apply x7 _).trans ((val_main_v32_apply x7 _).trans (congrArg x7 (funext fun a => ?_)))
    match a with
    | ⟨0, _⟩ => rfl
  · refine (val_main_v31_apply x0 x6 (ix2 r j)).trans (Finset.sum_congr rfl fun k _ => ?_)
    refine congrArg₂ (· * ·) (congrArg x0 (funext fun a => ?_)) ((val_main_v30_apply x6 _).trans (congrArg x6 (funext fun a => ?_)))
    · match a with
      | ⟨0, _⟩ => rfl
      | ⟨1, _⟩ => rfl
    · match a with
      | ⟨0, _⟩ => rfl
      | ⟨1, _⟩ => rfl

theorem target_eq (x0 : (⟨S8192x2048, .f32⟩ : BufTy).Contents (Elt Ideal)) (x6 : (⟨S2048x2048, .f32⟩ : BufTy).Contents (Elt Ideal))
    (x7 : (⟨S2048, .f32⟩ : BufTy).Contents (Elt Ideal)) :
    val_main_v34 (F := Ideal) x0 x6 x7 = target x0 x6 x7 := by
  funext i
  obtain ⟨r, j, rfl⟩ : ∃ (r : Fin 8192) (j : Fin 2048), i = ix2 r j := ⟨i 0, i 1, eq_ix2 i⟩
  exact v34_at x0 x6 x7 r j

/-! ## The gates -/

/-- The velocity gate at `(r, j)`: the logistic function, spelled `1 / (1 + exp (−x))`, of the first chunk. -/
theorem v20_at (r : Fin 8192) (j : Fin 2048) :
    val_main_v20 (F := Ideal) x0 x1 x2 x3 x4 x5 (ix2 r j) = Ideal.logistic (rawRow x0 x1 x2 x3 x4 x5 r (chunk 0 j)) := by
  have h19 : val_main_v19 (F := Ideal) (ix2 r j) = w1 := (val_main_v19_apply _).trans rfl
  have h17 : val_main_v17 (F := Ideal) (ix2 r j) = w1 := (val_main_v17_apply _).trans rfl
  show Ideal.div (val_main_v19 (F := Ideal) (ix2 r j))
      (val_main_v17 (F := Ideal) (ix2 r j) + Ideal.exp (-(val_main_v12 (F := Ideal) x0 x1 x2 x3 x4 x5 (ix2 r j)))) = _
  rw [h19, h17, logistic_spelled, v12_at x0 x1 x2 x3 x4 x5 r j]

/-- The state gate at `(r, j)`: the logistic function of the third chunk. -/
theorem v29_at (r : Fin 8192) (j : Fin 2048) :
    val_main_v29 (F := Ideal) x0 x1 x2 x3 x4 x5 (ix2 r j) = Ideal.logistic (rawRow x0 x1 x2 x3 x4 x5 r (chunk 2 j)) := by
  have h28 : val_main_v28 (F := Ideal) (ix2 r j) = w1 := (val_main_v28_apply _).trans rfl
  have h26 : val_main_v26 (F := Ideal) (ix2 r j) = w1 := (val_main_v26_apply _).trans rfl
  show Ideal.div (val_main_v28 (F := Ideal) (ix2 r j))
      (val_main_v26 (F := Ideal) (ix2 r j) + Ideal.exp (-(val_main_v14 (F := Ideal) x0 x1 x2 x3 x4 x5 (ix2 r j)))) = _
  rw [h28, h26, logistic_spelled, v14_at x0 x1 x2 x3 x4 x5 r j]

/-- The stiffness before its cap at `(r, j)`: softplus, in the guarded spelling `max x 0 + log1p (exp (−|x − 0|))`, of the
    second chunk. -/
theorem v21_at (r : Fin 8192) (j : Fin 2048) :
    val_main_v21 (F := Ideal) x0 x1 x2 x3 x4 x5 (ix2 r j) = softplus (rawRow x0 x1 x2 x3 x4 x5 r (chunk 1 j)) := by
  have h0 : val_main_call1_v0 (F := Ideal) (ix2 r j) = w0 := (val_main_call1_v0_apply _).trans rfl
  have h2 : val_main_call1_v2 (F := Ideal) (ix2 r j) = w0 := (val_main_call1_v2_apply _).trans rfl
  have h5 : val_main_call1_v5 (F := Ideal) (ix2 r j) = w0 := (val_main_call1_v5_apply _).trans rfl
  show Scalar.select
      (Ideal.cmp .une
        (val_main_v13 (F := Ideal) x0 x1 x2 x3 x4 x5 (ix2 r j) - val_main_call1_v2 (F := Ideal) (ix2 r j))
        (val_main_v13 (F := Ideal) x0 x1 x2 x3 x4 x5 (ix2 r j) - val_main_call1_v2 (F := Ideal) (ix2 r j)))
      (val_main_v13 (F := Ideal) x0 x1 x2 x3 x4 x5 (ix2 r j) + val_main_call1_v5 (F := Ideal) (ix2 r j))
      (max (val_main_v13 (F := Ideal) x0 x1 x2 x3 x4 x5 (ix2 r j)) (val_main_call1_v0 (F := Ideal) (ix2 r j))
        + Ideal.log1p (Ideal.exp (-(max
            (val_main_v13 (F := Ideal) x0 x1 x2 x3 x4 x5 (ix2 r j) - val_main_call1_v2 (F := Ideal) (ix2 r j))
            (-(val_main_v13 (F := Ideal) x0 x1 x2 x3 x4 x5 (ix2 r j) - val_main_call1_v2 (F := Ideal) (ix2 r j))))))) = _
  rw [h0, h2, h5, softplus_spelled, v13_at x0 x1 x2 x3 x4 x5 r j]

/-! ## The new velocity and the new state -/

/-- Row `r` of the new velocity, as the formula over readers. -/
abbrev vNextRow (r : Fin 8192) : Fin 2048 → EReal :=
  vNext (fun k => x0 (ix2 r k)) (fun k => x1 (ix2 r k)) (fun c k => x2 (ix2 c (lo k))) (fun c k => x2 (ix2 c (hi k)))
    (fun c => x3 (ix1 c)) (fun j c => x4 (ix2 j c)) (fun j => x5 (ix1 j)) (fun j k => x6 (ix2 j k)) (fun j => x7 (ix1 j))

/-- Row `r` of the new state, as the formula over readers. -/
abbrev hNextRow (r : Fin 8192) : Fin 2048 → EReal :=
  hNext (fun k => x0 (ix2 r k)) (fun k => x1 (ix2 r k)) (fun c k => x2 (ix2 c (lo k))) (fun c k => x2 (ix2 c (hi k)))
    (fun c => x3 (ix1 c)) (fun j c => x4 (ix2 j c)) (fun j => x5 (ix1 j)) (fun j k => x6 (ix2 j k)) (fun j => x7 (ix1 j))

/-- The new velocity at `(r, j)`: the gated velocity less the capped stiffness times the distance to the target,
    clipped to `[-10, 10]`. -/
theorem v39_at (r : Fin 8192) (j : Fin 2048) :
    val_main_v39 (F := Ideal) x0 x1 x2 x3 x4 x5 x6 x7 (ix2 r j) = vNextRow x0 x1 x2 x3 x4 x5 x6 x7 r j := by
  have h4 : val_main_call2_v4 (F := Ideal) (ix2 r j) = w10 := (val_main_call2_v4_apply _).trans rfl
  have h1 : val_main_call2_v1 (F := Ideal) (ix2 r j) = wm10 := (val_main_call2_v1_apply _).trans rfl
  have h22 : val_main_v22 (F := Ideal) (ix2 r j) = w2 := (val_main_v22_apply _).trans rfl
  show min (val_main_call2_v4 (F := Ideal) (ix2 r j))
      (max (val_main_call2_v1 (F := Ideal) (ix2 r j))
        (val_main_v20 (F := Ideal) x0 x1 x2 x3 x4 x5 (ix2 r j) * x1 (ix2 r j)
          - min (val_main_v21 (F := Ideal) x0 x1 x2 x3 x4 x5 (ix2 r j)) (val_main_v22 (F := Ideal) (ix2 r j))
            * (x0 (ix2 r j) - val_main_v34 (F := Ideal) x0 x6 x7 (ix2 r j)))) = _
  rw [h4, h1, h22, v20_at x0 x1 x2 x3 x4 x5 r j, v21_at x0 x1 x2 x3 x4 x5 r j, v34_at x0 x6 x7 r j]
  rfl

/-- The new state at `(r, j)`: the state plus a tenth of the gated new velocity. -/
theorem v43_at (r : Fin 8192) (j : Fin 2048) :
    val_main_v43 (F := Ideal) x0 x1 x2 x3 x4 x5 x6 x7 (ix2 r j) = hNextRow x0 x1 x2 x3 x4 x5 x6 x7 r j := by
  have h40 : val_main_v40 (F := Ideal) (ix2 r j) = wTenth := (val_main_v40_apply _).trans rfl
  show x0 (ix2 r j)
      + (val_main_v40 (F := Ideal) (ix2 r j) * val_main_v29 (F := Ideal) x0 x1 x2 x3 x4 x5 (ix2 r j))
        * val_main_v39 (F := Ideal) x0 x1 x2 x3 x4 x5 x6 x7 (ix2 r j) = _
  rw [h40, v29_at x0 x1 x2 x3 x4 x5 r j, v39_at x0 x1 x2 x3 x4 x5 x6 x7 r j]
  rfl

/-! ## The three results as whole arrays -/

theorem velocity_eq (x0 x1 : (⟨S8192x2048, .f32⟩ : BufTy).Contents (Elt Ideal)) (x2 : (⟨S256x4096, .f32⟩ : BufTy).Contents (Elt Ideal))
    (x3 : (⟨S256, .f32⟩ : BufTy).Contents (Elt Ideal)) (x4 : (⟨S6144x256, .f32⟩ : BufTy).Contents (Elt Ideal))
    (x5 : (⟨S6144, .f32⟩ : BufTy).Contents (Elt Ideal)) (x6 : (⟨S2048x2048, .f32⟩ : BufTy).Contents (Elt Ideal))
    (x7 : (⟨S2048, .f32⟩ : BufTy).Contents (Elt Ideal)) :
    val_main_v39 (F := Ideal) x0 x1 x2 x3 x4 x5 x6 x7 = newVelocity x0 x1 x2 x3 x4 x5 x6 x7 := by
  funext i
  obtain ⟨r, j, rfl⟩ : ∃ (r : Fin 8192) (j : Fin 2048), i = ix2 r j := ⟨i 0, i 1, eq_ix2 i⟩
  exact v39_at x0 x1 x2 x3 x4 x5 x6 x7 r j

theorem state_eq (x0 x1 : (⟨S8192x2048, .f32⟩ : BufTy).Contents (Elt Ideal)) (x2 : (⟨S256x4096, .f32⟩ : BufTy).Contents (Elt Ideal))
    (x3 : (⟨S256, .f32⟩ : BufTy).Contents (Elt Ideal)) (x4 : (⟨S6144x256, .f32⟩ : BufTy).Contents (Elt Ideal))
    (x5 : (⟨S6144, .f32⟩ : BufTy).Contents (Elt Ideal)) (x6 : (⟨S2048x2048, .f32⟩ : BufTy).Contents (Elt Ideal))
    (x7 : (⟨S2048, .f32⟩ : BufTy).Contents (Elt Ideal)) :
    val_main_v43 (F := Ideal) x0 x1 x2 x3 x4 x5 x6 x7 = newState x0 x1 x2 x3 x4 x5 x6 x7 := by
  funext i
  obtain ⟨r, j, rfl⟩ : ∃ (r : Fin 8192) (j : Fin 2048), i = ix2 r j := ⟨i 0, i 1, eq_ix2 i⟩
  exact v43_at x0 x1 x2 x3 x4 x5 x6 x7 r j

end Cert.ReferenceIdeal.Row

end
-- ==== Proof.lean ====
/-
  The certificate of the gated state update: a Pallas kernel over 64 blocks of 128 rows against its jnp reference.

  Both programs take a state `h` and a velocity `v` (8192 × 2048 each), a controller (input weight 256 × 4096 with bias,
  output weight 6144 × 256 with bias) and a projection (2048 × 2048 with offset), and return the new state, the new
  velocity and the contextual target; Proof/Update.lean has the formulas. They differ in arrangement only: the reference
  joins `h` and `v` into one 4096-column array and multiplies once, where the kernel multiplies each by its half of the
  input weight and adds (a sum over 4096 positions is the sum over the first 2048 plus the sum over the last 2048, in any
  commutative monoid, so no finiteness is needed); the reference slices the controller's 6144 outputs into three chunks
  after the product, where the kernel multiplies by the three row chunks of the weight; the reference spells the logistic
  function `1 / (1 + exp (−x))` and tests `x ≠ x` with the unordered comparison where the kernel has the function itself and
  the ordered comparison, which on the extended reals denote the same. The narrowing of the matrix products' operands is the
  identity on the extended reals; the kernel's reading on the extended reals is its own text with no operation replaced, so
  `preserves` is `True`.

  Kernel side: Proof/KernelDots.lean (the three products read at an index), KernelRow.lean (the body's values at an entry),
  KernelBlock.lean (the three output blocks at an entry), KernelArrays.lean (the blocks cover the arrays; the run).
  Reference side: Proof/ReferenceRow.lean (the reference's stages at an entry).
-/
import proofs.«123418_j25323127177574_2_alg».proof.Defs
import proofs.«123418_j25323127177574_2_alg».proof.Proof.Gen.Kernel
import proofs.«123418_j25323127177574_2_alg».proof.Proof.Gen.Kernel.Skeleton
import proofs.«123418_j25323127177574_2_alg».proof.Proof.Gen.Kernel.Launch
import proofs.«123418_j25323127177574_2_alg».proof.Proof.Gen.Kernel.Points
import proofs.«123418_j25323127177574_2_alg».proof.Proof.Gen.Kernel.Frame
import proofs.«123418_j25323127177574_2_alg».proof.Proof.Gen.KernelIdeal
import proofs.«123418_j25323127177574_2_alg».proof.Proof.Gen.KernelIdeal.Skeleton
import proofs.«123418_j25323127177574_2_alg».proof.Proof.Gen.KernelIdeal.Launch
import proofs.«123418_j25323127177574_2_alg».proof.Proof.Gen.KernelIdeal.Points
import proofs.«123418_j25323127177574_2_alg».proof.Proof.Gen.KernelIdeal.Frame
import proofs.«123418_j25323127177574_2_alg».proof.Proof.Gen.KernelIdeal.Value
import proofs.«123418_j25323127177574_2_alg».proof.Proof.Gen.ReferenceIdeal
import proofs.«123418_j25323127177574_2_alg».proof.Proof.Gen.ReferenceIdeal.Run
import proofs.«123418_j25323127177574_2_alg».proof.Proof.Gen.ReferenceIdeal.Read
import proofs.«123418_j25323127177574_2_alg».proof.Proof.Gen.Pre_finite_inputs
import proofs.«123418_j25323127177574_2_alg».proof.Proof.KernelArrays
import proofs.«123418_j25323127177574_2_alg».proof.Proof.ReferenceRow
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the eight arguments both programs end with the new state, the new velocity and the
    contextual target of those arguments. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2⟩
  · refine (Cert.ReferenceIdeal.Read.val_main_v43_eq m' c).trans ((Cert.ReferenceIdeal.Row.state_eq _ _ _ _ _ _ _ _).trans ?_)
    rw [a0, a1, a2, a3, a4, a5, a6, a7]
  · refine (Cert.ReferenceIdeal.Read.val_main_v39_eq m' c).trans ((Cert.ReferenceIdeal.Row.velocity_eq _ _ _ _ _ _ _ _).trans ?_)
    rw [a0, a1, a2, a3, a4, a5, a6, a7]
  · refine (Cert.ReferenceIdeal.Read.val_main_v34_eq _ _ _).trans ((Cert.ReferenceIdeal.Row.target_eq _ _ _).trans ?_)
    rw [a0, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
